-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S512x640 .f32) (main_arg8 : FVec F S640 .f32) (main_arg9 : FVec F S640x1024 .f32) (main_arg10 : FVec F S1024 .f32) (main_v33 : IVec S_ 1) : IVec S_ 1 :=
  let main_v34 : FVec F S512x640 .f32 := Host.absf main_arg7
  let main_cst_12 : FVec F S_ .f32 := constant S_ .f32 0x7F800000#32
  let main_v35 : FVec F S512x640 .f32 := broadcastInDim S512x640 ![] bcast_S_S512x640 main_cst_12
  let main_v36 : IVec S512x640 1 := cmpf .olt main_v34 main_v35
  let main_c_13 : IVec S_ 1 := constantI S_ 1 1#1
  let main_v37 : IVec S_ 1 := (fun x v => Host.reduce IntOp.andi x v reducesTo_S512x640_S_d0_1 h_S_) main_v36 main_c_13
  let main_v38 : IVec S_ 1 := andi main_v33 main_v37
  let main_v39 : FVec F S640 .f32 := Host.absf main_arg8
  let main_cst_14 : FVec F S_ .f32 := constant S_ .f32 0x7F800000#32
  let main_v40 : FVec F S640 .f32 := broadcastInDim S640 ![] bcast_S_S640 main_cst_14
  let main_v41 : IVec S640 1 := cmpf .olt main_v39 main_v40
  let main_c_15 : IVec S_ 1 := constantI S_ 1 1#1
  let main_v42 : IVec S_ 1 := (fun x v => Host.reduce IntOp.andi x v reducesTo_S640_S_d0 h_S_) main_v41 main_c_15
  let main_v43 : IVec S_ 1 := andi main_v38 main_v42
  let main_v44 : FVec F S640x1024 .f32 := Host.absf main_arg9
  let main_cst_16 : FVec F S_ .f32 := constant S_ .f32 0x7F800000#32
  let main_v45 : FVec F S640x1024 .f32 := broadcastInDim S640x1024 ![] bcast_S_S640x1024 main_cst_16
  let main_v46 : IVec S640x1024 1 := cmpf .olt main_v44 main_v45
  let main_c_17 : IVec S_ 1 := constantI S_ 1 1#1
  let main_v47 : IVec S_ 1 := (fun x v => Host.reduce IntOp.andi x v reducesTo_S640x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S640 .f32) (main_arg5 : FVec F S512x640 .f32) (main_arg6 : FVec F S640 .f32) (main_arg7 : FVec F S512x640 .f32) (main_arg8 : FVec F S640 .f32) (main_arg9 : FVec F S640x1024 .f32) (main_arg10 : FVec F S1024 .f32) (main_v13 : IVec S_ 1) (main_v16 : IVec S512x640 1) : IVec S_ 1 :=
  let main_c_5 : IVec S_ 1 := constantI S_ 1 1#1
  let main_v17 : IVec S_ 1 := (fun x v => Host.reduce IntOp.andi x v reducesTo_S512x640_S_d0_1 h_S_) main_v16 main_c_5
  let main_v18 : IVec S_ 1 := andi main_v13 main_v17
  let main_v19 : FVec F S640 .f32 := Host.absf main_arg4
  let main_cst_6 : FVec F S_ .f32 := constant S_ .f32 0x7F800000#32
  let main_v20 : FVec F S640 .f32 := broadcastInDim S640 ![] bcast_S_S640 main_cst_6
  let main_v21 : IVec S640 1 := cmpf .olt main_v19 main_v20
  let main_c_7 : IVec S_ 1 := constantI S_ 1 1#1
  let main_v22 : IVec S_ 1 := (fun x v => Host.reduce IntOp.andi x v reducesTo_S640_S_d0 h_S_) main_v21 main_c_7
  let main_v23 : IVec S_ 1 := andi main_v18 main_v22
  let main_v24 : FVec F S512x640 .f32 := Host.absf main_arg5
  let main_cst_8 : FVec F S_ .f32 := constant S_ .f32 0x7F800000#32
  let main_v25 : FVec F S512x640 .f32 := broadcastInDim S512x640 ![] bcast_S_S512x640 main_cst_8
  let main_v26 : IVec S512x640 1 := cmpf .olt main_v24 main_v25
  let main_c_9 : IVec S_ 1 := constantI S_ 1 1#1
  let main_v27 : IVec S_ 1 := (fun x v => Host.reduce IntOp.andi x v reducesTo_S512x640_S_d0_1 h_S_) main_v26 main_c_9
  let main_v28 : IVec S_ 1 := andi main_v23 main_v27
  let main_v29 : FVec F S640 .f32 := Host.absf main_arg6
  let main_cst_10 : FVec F S_ .f32 := constant S_ .f32 0x7F800000#32
  let main_v30 : FVec F S640 .f32 := broadcastInDim S640 ![] bcast_S_S640 main_cst_10
  let main_v31 : IVec S640 1 := cmpf .olt main_v29 main_v30
  let main_c_11 : IVec S_ 1 := constantI S_ 1 1#1
  let main_v32 : IVec S_ 1 := (fun x v => Host.reduce IntOp.andi x v reducesTo_S640_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x200x512 .f32) (main_arg1 : FVec F S8x50x512 .f32) (main_arg2 : FVec F S8x200x512 .f32) (main_arg3 : FVec F S512x640 .f32) (main_arg4 : FVec F S640 .f32) (main_arg5 : FVec F S512x640 .f32) (main_arg6 : FVec F S640 .f32) (main_arg7 : FVec F S512x640 .f32) (main_arg8 : FVec F S640 .f32) (main_arg9 : FVec F S640x1024 .f32) (main_arg10 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S8x200x512 .f32 := Host.absf main_arg2
  let main_cst_2 : FVec F S_ .f32 := constant S_ .f32 0x7F800000#32
  let main_v10 : FVec F S8x200x512 .f32 := broadcastInDim S8x200x512 ![] bcast_S_S8x200x512 main_cst_2
  let main_v11 : IVec S8x200x512 1 := cmpf .olt main_v9 main_v10
  let main_c_3 : IVec S_ 1 := constantI S_ 1 1#1
  let main_v12 : IVec S_ 1 := (fun x v => Host.reduce IntOp.andi x v reducesTo_S8x200x512_S_d0_1_2 h_S_) main_v11 main_c_3
  let main_v13 : IVec S_ 1 := andi main_v8 main_v12
  let main_v14 : FVec F S512x640 .f32 := Host.absf main_arg3
  let main_cst_4 : FVec F S_ .f32 := constant S_ .f32 0x7F800000#32
  let main_v15 : FVec F S512x640 .f32 := broadcastInDim S512x640 ![] bcast_S_S512x640 main_cst_4
  let main_v16 : IVec S512x640 1 := cmpf .olt main_v14 main_v15
  fn_part1 (F := F) main_arg4 main_arg5 main_arg6 main_arg7 main_arg8 main_arg9 main_arg10 main_v13 main_v16
-- ==== Kernel.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S_ : Shape := ⟨0, ![]⟩
abbrev S8x208x512 : Shape := ⟨3, ![8, 208, 512]⟩
abbrev S8x208x50x1024 : Shape := ⟨4, ![8, 208, 50, 1024]⟩
abbrev S1x16x512 : Shape := ⟨3, ![1, 16, 512]⟩
abbrev S1x50x512 : Shape := ⟨3, ![1, 50, 512]⟩
abbrev S1x16x50x1024 : Shape := ⟨4, ![1, 16, 50, 1024]⟩
abbrev S896x640 : Shape := ⟨2, ![896, 640]⟩
abbrev S50x512 : Shape := ⟨2, ![50, 512]⟩
abbrev S50x640 : Shape := ⟨2, ![50, 640]⟩
abbrev S1x640 : Shape := ⟨2, ![1, 640]⟩
abbrev S16x512 : Shape := ⟨2, ![16, 512]⟩
abbrev S16x640 : Shape := ⟨2, ![16, 640]⟩
abbrev S896x1024 : Shape := ⟨2, ![896, 1024]⟩
abbrev S1x1024 : Shape := ⟨2, ![1, 1024]⟩
abbrev S50x1024 : Shape := ⟨2, ![50, 1024]⟩
abbrev S1x1x50x1024 : Shape := ⟨4, ![1, 1, 50, 1024]⟩
abbrev S8x200x50x1024 : Shape := ⟨4, ![8, 200, 50, 1024]⟩

abbrev nBuf : Space → Nat
  | .hbm => 23
  | .vmem => 17
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S8x200x512, .f32⟩
  | .hbm, ⟨3, _⟩ => ⟨S512x640, .f32⟩
  | .hbm, ⟨4, _⟩ => ⟨S640, .f32⟩
  | .hbm, ⟨5, _⟩ => ⟨S512x640, .f32⟩
  | .hbm, ⟨6, _⟩ => ⟨S640, .f32⟩
  | .hbm, ⟨7, _⟩ => ⟨S512x640, .f32⟩
  | .hbm, ⟨8, _⟩ => ⟨S640, .f32⟩
  | .hbm, ⟨9, _⟩ => ⟨S640x1024, .f32⟩
  | .hbm, ⟨10, _⟩ => ⟨S1024, .f32⟩
  | .hbm, ⟨11, _⟩ => ⟨S512x640, .bf16⟩
  | .hbm, ⟨12, _⟩ => ⟨S512x640, .bf16⟩
  | .hbm, ⟨13, _⟩ => ⟨S512x640, .bf16⟩
  | .hbm, ⟨14, _⟩ => ⟨S640x1024, .bf16⟩
  | .hbm, ⟨15, _⟩ => ⟨S_, .i32⟩
  | .hbm, ⟨16, _⟩ => ⟨S_, .f32⟩
  | .hbm, ⟨17, _⟩ => ⟨S8x208x512, .f32⟩
  | .hbm, ⟨18, _⟩ => ⟨S_, .i32⟩
  | .hbm, ⟨19, _⟩ => ⟨S_, .f32⟩
  | .hbm, ⟨20, _⟩ => ⟨S8x208x512, .f32⟩
  | .hbm, ⟨21, _⟩ => ⟨S8x208x50x1024, .f32⟩
  | .hbm, ⟨22, _⟩ => ⟨S8x200x50x1024, .f32⟩
  | .local _ .vmem, ⟨0, _⟩ => ⟨S1x16x512, .f32⟩
  | .local _ .vmem, ⟨1, _⟩ => ⟨S1x16x512, .f32⟩
  | .local _ .vmem, ⟨2, _⟩ => ⟨S1x16x512, .f32⟩
  | .local _ .vmem, ⟨3, _⟩ => ⟨S1x16x512, .f32⟩
  | .local _ .vmem, ⟨4, _⟩ => ⟨S1x50x512, .f32⟩
  | .local _ .vmem, ⟨5, _⟩ => ⟨S1x50x512, .f32⟩
  | .local _ .vmem, ⟨6, _⟩ => ⟨S512x640, .bf16⟩
  | .local _ .vmem, ⟨7, _⟩ => ⟨S640, .f32⟩
  | .local _ .vmem, ⟨8, _⟩ => ⟨S512x640, .bf16⟩
  | .local _ .vmem, ⟨9, _⟩ => ⟨S640, .f32⟩
  | .local _ .vmem, ⟨10, _⟩ => ⟨S512x640, .bf16⟩
  | .local _ .vmem, ⟨11, _⟩ => ⟨S640, .f32⟩
  | .local _ .vmem, ⟨12, _⟩ => ⟨S640x1024, .bf16⟩
  | .local _ .vmem, ⟨13, _⟩ => ⟨S1024, .f32⟩
  | .local _ .vmem, ⟨14, _⟩ => ⟨S1x16x50x1024, .f32⟩
  | .local _ .vmem, ⟨15, _⟩ => ⟨S1x16x50x1024, .f32⟩
  | .local _ .vmem, ⟨16, _⟩ => ⟨S896x640, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x50x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S640x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x16x50x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bitsLt_bf16_f32 : FTy.bits .bf16 < FTy.bits .f32
  pads_S8x200x512_S8x208x512_000_080_000 : S8x200x512.Pads (![0, 0, 0] : Fin 3 → Nat) ![0, 8, 0] ![0, 0, 0] S8x208x512
  h_S_ : 0 < S_.numel
  inb_S1x50x512_S1x50x512_0_0_0 : ∀ a, (![0, 0, 0] : Fin 3 → Nat) a + S1x50x512.size a ≤ S1x50x512.size a
  h_S1x50x512 : 0 < S1x50x512.numel
  shapeCasts_S1x50x512_S50x512 : S1x50x512.ShapeCasts S50x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640_S640_0 : ∀ a, (![0] : Fin 1 → Nat) a + S640.size a ≤ S640.size a
  h_S640 : 0 < S640.numel
  shapeCasts_S640_S1x640 : S640.ShapeCasts S1x640
  broadcasts_S1x640_S50x640 : S1x640.Broadcasts S50x640
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1024_S1024_0 : ∀ a, (![0] : Fin 1 → Nat) a + S1024.size a ≤ S1024.size a
  h_S1024 : 0 < S1024.numel
  broadcasts_S1x640_S16x640 : S1x640.Broadcasts S16x640
  slices_S16x640_o0_0_S1x640 : S16x640.Slices ![0, 0] S1x640
  inb_S896x640_S50x640_0_0 : ∀ a, (![0, 0] : Fin 2 → Nat) a + S50x640.size a ≤ S896x640.size a
  h_S50x640 : 0 < S50x640.numel
  shapeCasts_S50x640_S50x640 : S50x640.ShapeCasts S50x640
  slices_S16x640_o1_0_S1x640 : S16x640.Slices ![1, 0] S1x640
  inb_S896x640_S50x640_56_0 : ∀ a, (![56, 0] : Fin 2 → Nat) a + S50x640.size a ≤ S896x640.size a
  slices_S16x640_o2_0_S1x640 : S16x640.Slices ![2, 0] S1x640
  inb_S896x640_S50x640_112_0 : ∀ a, (![112, 0] : Fin 2 → Nat) a + S50x640.size a ≤ S896x640.size a
  slices_S16x640_o3_0_S1x640 : S16x640.Slices ![3, 0] S1x640
  inb_S896x640_S50x640_168_0 : ∀ a, (![168, 0] : Fin 2 → Nat) a + S50x640.size a ≤ S896x640.size a
  slices_S16x640_o4_0_S1x640 : S16x640.Slices ![4, 0] S1x640
  inb_S896x640_S50x640_224_0 : ∀ a, (![224, 0] : Fin 2 → Nat) a + S50x640.size a ≤ S896x640.size a
  slices_S16x640_o5_0_S1x640 : S16x640.Slices ![5, 0] S1x640
  inb_S896x640_S50x640_280_0 : ∀ a, (![280, 0] : Fin 2 → Nat) a + S50x640.size a ≤ S896x640.size a
  slices_S16x640_o6_0_S1x640 : S16x640.Slices ![6, 0] S1x640
  inb_S896x640_S50x640_336_0 : ∀ a, (![336, 0] : Fin 2 → Nat) a + S50x640.size a ≤ S896x640.size a
  slices_S16x640_o7_0_S1x640 : S16x640.Slices ![7, 0] S1x640
  inb_S896x640_S50x640_392_0 : ∀ a, (![392, 0] : Fin 2 → Nat) a + S50x640.size a ≤ S896x640.size a
  slices_S16x640_o8_0_S1x640 : S16x640.Slices ![8, 0] S1x640
  inb_S896x640_S50x640_448_0 : ∀ a, (![448, 0] : Fin 2 → Nat) a + S50x640.size a ≤ S896x640.size a
  slices_S16x640_o9_0_S1x640 : S16x640.Slices ![9, 0] S1x640
  inb_S896x640_S50x640_504_0 : ∀ a, (![504, 0] : Fin 2 → Nat) a + S50x640.size a ≤ S896x640.size a
  slices_S16x640_o10_0_S1x640 : S16x640.Slices ![10, 0] S1x640
  inb_S896x640_S50x640_560_0 : ∀ a, (![560, 0] : Fin 2 → Nat) a + S50x640.size a ≤ S896x640.size a
  slices_S16x640_o11_0_S1x640 : S16x640.Slices ![11, 0] S1x640
  inb_S896x640_S50x640_616_0 : ∀ a, (![616, 0] : Fin 2 → Nat) a + S50x640.size a ≤ S896x640.size a
  slices_S16x640_o12_0_S1x640 : S16x640.Slices ![12, 0] S1x640
  inb_S896x640_S50x640_672_0 : ∀ a, (![672, 0] : Fin 2 → Nat) a + S50x640.size a ≤ S896x640.size a
  slices_S16x640_o13_0_S1x640 : S16x640.Slices ![13, 0] S1x640
  inb_S896x640_S50x640_728_0 : ∀ a, (![728, 0] : Fin 2 → Nat) a + S50x640.size a ≤ S896x640.size a
  slices_S16x640_o14_0_S1x640 : S16x640.Slices ![14, 0] S1x640
  inb_S896x640_S50x640_784_0 : ∀ a, (![784, 0] : Fin 2 → Nat) a + S50x640.size a ≤ S896x640.size a
  slices_S16x640_o15_0_S1x640 : S16x640.Slices ![15, 0] S1x640
  inb_S896x640_S50x640_840_0 : ∀ a, (![840, 0] : Fin 2 → Nat) a + S50x640.size a ≤ S896x640.size a
  inb_S896x640_S896x640_0_0 : ∀ a, (![0, 0] : Fin 2 → Nat) a + S896x640.size a ≤ S896x640.size a
  h_S896x640 : 0 < S896x640.numel
  shapeCasts_S1024_S1x1024 : S1024.ShapeCasts S1x1024
  broadcasts_S1x1024_S896x1024 : S1x1024.Broadcasts S896x1024
  slices_S896x1024_o0_0_S50x1024 : S896x1024.Slices ![0, 0] S50x1024
  inb_S1x16x50x1024_S1x1x50x1024_0_0_0_0 : ∀ a, (![0, 0, 0, 0] : Fin 4 → Nat) a + S1x1x50x1024.size a ≤ S1x16x50x1024.size a
  h_S1x1x50x1024 : 0 < S1x1x50x1024.numel
  shapeCasts_S1x1x50x1024_S50x1024 : S1x1x50x1024.ShapeCasts S50x1024
  shapeCasts_S50x1024_S1x1x50x1024 : S50x1024.ShapeCasts S1x1x50x1024
  slices_S896x1024_o56_0_S50x1024 : S896x1024.Slices ![56, 0] S50x1024
  inb_S1x16x50x1024_S1x1x50x1024_0_1_0_0 : ∀ a, (![0, 1, 0, 0] : Fin 4 → Nat) a + S1x1x50x1024.size a ≤ S1x16x50x1024.size a
  slices_S896x1024_o112_0_S50x1024 : S896x1024.Slices ![112, 0] S50x1024
  inb_S1x16x50x1024_S1x1x50x1024_0_2_0_0 : ∀ a, (![0, 2, 0, 0] : Fin 4 → Nat) a + S1x1x50x1024.size a ≤ S1x16x50x1024.size a
  slices_S896x1024_o168_0_S50x1024 : S896x1024.Slices ![168, 0] S50x1024
  inb_S1x16x50x1024_S1x1x50x1024_0_3_0_0 : ∀ a, (![0, 3, 0, 0] : Fin 4 → Nat) a + S1x1x50x1024.size a ≤ S1x16x50x1024.size a
  slices_S896x1024_o224_0_S50x1024 : S896x1024.Slices ![224, 0] S50x1024
  inb_S1x16x50x1024_S1x1x50x1024_0_4_0_0 : ∀ a, (![0, 4, 0, 0] : Fin 4 → Nat) a + S1x1x50x1024.size a ≤ S1x16x50x1024.size a
  slices_S896x1024_o280_0_S50x1024 : S896x1024.Slices ![280, 0] S50x1024
  inb_S1x16x50x1024_S1x1x50x1024_0_5_0_0 : ∀ a, (![0, 5, 0, 0] : Fin 4 → Nat) a + S1x1x50x1024.size a ≤ S1x16x50x1024.size a
  slices_S896x1024_o336_0_S50x1024 : S896x1024.Slices ![336, 0] S50x1024
  inb_S1x16x50x1024_S1x1x50x1024_0_6_0_0 : ∀ a, (![0, 6, 0, 0] : Fin 4 → Nat) a + S1x1x50x1024.size a ≤ S1x16x50x1024.size a
  slices_S896x1024_o392_0_S50x1024 : S896x1024.Slices ![392, 0] S50x1024
  inb_S1x16x50x1024_S1x1x50x1024_0_7_0_0 : ∀ a, (![0, 7, 0, 0] : Fin 4 → Nat) a + S1x1x50x1024.size a ≤ S1x16x50x1024.size a
  slices_S896x1024_o448_0_S50x1024 : S896x1024.Slices ![448, 0] S50x1024
  inb_S1x16x50x1024_S1x1x50x1024_0_8_0_0 : ∀ a, (![0, 8, 0, 0] : Fin 4 → Nat) a + S1x1x50x1024.size a ≤ S1x16x50x1024.size a
  slices_S896x1024_o504_0_S50x1024 : S896x1024.Slices ![504, 0] S50x1024
  inb_S1x16x50x1024_S1x1x50x1024_0_9_0_0 : ∀ a, (![0, 9, 0, 0] : Fin 4 → Nat) a + S1x1x50x1024.size a ≤ S1x16x50x1024.size a
  slices_S896x1024_o560_0_S50x1024 : S896x1024.Slices ![560, 0] S50x1024
  inb_S1x16x50x1024_S1x1x50x1024_0_10_0_0 : ∀ a, (![0, 10, 0, 0] : Fin 4 → Nat) a + S1x1x50x1024.size a ≤ S1x16x50x1024.size a
  slices_S896x1024_o616_0_S50x1024 : S896x1024.Slices ![616, 0] S50x1024
  inb_S1x16x50x1024_S1x1x50x1024_0_11_0_0 : ∀ a, (![0, 11, 0, 0] : Fin 4 → Nat) a + S1x1x50x1024.size a ≤ S1x16x50x1024.size a
  slices_S896x1024_o672_0_S50x1024 : S896x1024.Slices ![672, 0] S50x1024
  inb_S1x16x50x1024_S1x1x50x1024_0_12_0_0 : ∀ a, (![0, 12, 0, 0] : Fin 4 → Nat) a + S1x1x50x1024.size a ≤ S1x16x50x1024.size a
  slices_S896x1024_o728_0_S50x1024 : S896x1024.Slices ![728, 0] S50x1024
  inb_S1x16x50x1024_S1x1x50x1024_0_13_0_0 : ∀ a, (![0, 13, 0, 0] : Fin 4 → Nat) a + S1x1x50x1024.size a ≤ S1x16x50x1024.size a
  slices_S896x1024_o784_0_S50x1024 : S896x1024.Slices ![784, 0] S50x1024
  inb_S1x16x50x1024_S1x1x50x1024_0_14_0_0 : ∀ a, (![0, 14, 0, 0] : Fin 4 → Nat) a + S1x1x50x1024.size a ≤ S1x16x50x1024.size a
  slices_S896x1024_o840_0_S50x1024 : S896x1024.Slices ![840, 0] S50x1024
  inb_S1x16x50x1024_S1x1x50x1024_0_15_0_0 : ∀ a, (![0, 15, 0, 0] : Fin 4 → Nat) a + S1x1x50x1024.size a ≤ S1x16x50x1024.size a
  slices_S8x208x50x1024_S8x200x50x1024_0_0_0_0 : S8x208x50x1024.Slices ![0, 0, 0, 0] S8x200x50x1024
  dot_S50x512_S512x640_S50x640_1_0_0_1_n_n_wf : DotDims.WF S50x512 S512x640 S50x640 [1] [0] [0] [1] [] []
  dot_S16x512_S512x640_S16x640_1_0_0_1_n_n_wf : DotDims.WF S16x512 S512x640 S16x640 [1] [0] [0] [1] [] []
  dot_S896x640_S640x1024_S896x1024_1_0_0_1_n_n_wf : DotDims.WF S896x640 S640x1024 S896x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S8x208x512.size a
  hwx0_0 : ∀ i : grid0.Coords, EltTy.bits .f32 = 32 ∨ (Rect.block (s := S8x208x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x512.size a ≤ S8x208x512.size a
  hwx0_1 : ∀ i : grid0.Coords, EltTy.bits .f32 = 32 ∨ (Rect.block (s := S8x208x512) S1x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x50x512.size a ≤ S8x50x512.size a
  hwx0_2 : ∀ i : grid0.Coords, EltTy.bits .f32 = 32 ∨ (Rect.block (s := S8x50x512) S1x50x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x640.size a
  hwx0_3 : ∀ i : grid0.Coords, EltTy.bits .bf16 = 32 ∨ (Rect.block (s := S512x640) S512x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640.size a ≤ S640.size a
  hwx0_4 : ∀ i : grid0.Coords, EltTy.bits .f32 = 32 ∨ (Rect.block (s := S640) S640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x640.size a ≤ S512x640.size a
  hwx0_5 : ∀ i : grid0.Coords, EltTy.bits .bf16 = 32 ∨ (Rect.block (s := S512x640) S512x640.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640.size a ≤ S640.size a
  hwx0_6 : ∀ i : grid0.Coords, EltTy.bits .f32 = 32 ∨ (Rect.block (s := S640) S640.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x640.size a ≤ S512x640.size a
  hwx0_7 : ∀ i : grid0.Coords, EltTy.bits .bf16 = 32 ∨ (Rect.block (s := S512x640) S512x640.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S640.size a ≤ S640.size a
  hwx0_8 : ∀ i : grid0.Coords, EltTy.bits .f32 = 32 ∨ (Rect.block (s := S640) S640.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S640x1024.size a ≤ S640x1024.size a
  hwx0_9 : ∀ i : grid0.Coords, EltTy.bits .bf16 = 32 ∨ (Rect.block (s := S640x1024) S640x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16x50x1024.size a ≤ S8x208x50x1024.size a
  hwx0_11 : ∀ i : grid0.Coords, EltTy.bits .f32 = 32 ∨ (Rect.block (s := S8x208x50x1024) S1x16x50x1024.size (cc0_transform_11 i) (hinb0_11 i)).WholeWords (EltTy.packing .f32)

variable [Facts₀]

def dot_S50x512_S512x640_S50x640_1_0_0_1_n_n : DotDims S50x512 S512x640 S50x640 where
  lhsContracting := [1]
  rhsContracting := [0]
  lhsNonContracting := [0]
  rhsNonContracting := [1]
  lhsBatch := []
  rhsBatch := []
  wf := dot_S50x512_S512x640_S50x640_1_0_0_1_n_n_wf
def dot_S16x512_S512x640_S16x640_1_0_0_1_n_n : DotDims S16x512 S512x640 S16x640 where
  lhsContracting := [1]
  rhsContracting := [0]
  lhsNonContracting := [0]
  rhsNonContracting := [1]
  lhsBatch := []
  rhsBatch := []
  wf := dot_S16x512_S512x640_S16x640_1_0_0_1_n_n_wf
def dot_S896x640_S640x1024_S896x1024_1_0_0_1_n_n : DotDims S896x640 S640x1024 S896x1024 where
  lhsContracting := [1]
  rhsContracting := [0]
  lhsNonContracting := [0]
  rhsNonContracting := [1]
  lhsBatch := []
  rhsBatch := []
  wf := dot_S896x640_S640x1024_S896x1024_1_0_0_1_n_n_wf

abbrev win0_0 : Pipeline.Window sig grid0 :=
  Pipeline.Window.ofSpec (Memref.whole main_v4) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x50x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x640.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S640.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S640x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x16x50x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S8x200x640 : Shape := ⟨3, ![8, 200, 640]⟩
abbrev S1x1x640 : Shape := ⟨3, ![1, 1, 640]⟩
abbrev S8x50x640 : Shape := ⟨3, ![8, 50, 640]⟩
abbrev S8x200x1x640 : Shape := ⟨4, ![8, 200, 1, 640]⟩
abbrev S8x1x50x640 : Shape := ⟨4, ![8, 1, 50, 640]⟩
abbrev S8x200x50x640 : Shape := ⟨4, ![8, 200, 50, 640]⟩
abbrev S8x200x50x1024 : Shape := ⟨4, ![8, 200, 50, 1024]⟩
abbrev S1x1x1x1024 : Shape := ⟨4, ![1, 1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S8x200x512, .f32⟩
  | .hbm, ⟨3, _⟩ => ⟨S512x640, .f32⟩
  | .hbm, ⟨4, _⟩ => ⟨S640, .f32⟩
  | .hbm, ⟨5, _⟩ => ⟨S512x640, .f32⟩
  | .hbm, ⟨6, _⟩ => ⟨S640, .f32⟩
  | .hbm, ⟨7, _⟩ => ⟨S512x640, .f32⟩
  | .hbm, ⟨8, _⟩ => ⟨S640, .f32⟩
  | .hbm, ⟨9, _⟩ => ⟨S640x1024, .f32⟩
  | .hbm, ⟨10, _⟩ => ⟨S1024, .f32⟩
  | .hbm, ⟨11, _⟩ => ⟨S8x200x640, .f32⟩
  | .hbm, ⟨12, _⟩ => ⟨S1x1x640, .f32⟩
  | .hbm, ⟨13, _⟩ => ⟨S8x200x640, .f32⟩
  | .hbm, ⟨14, _⟩ => ⟨S8x200x640, .f32⟩
  | .hbm, ⟨15, _⟩ => ⟨S8x200x640, .f32⟩
  | .hbm, ⟨16, _⟩ => ⟨S8x200x640, .f32⟩
  | .hbm, ⟨17, _⟩ => ⟨S1x1x640, .f32⟩
  | .hbm, ⟨18, _⟩ => ⟨S8x200x640, .f32⟩
  | .hbm, ⟨19, _⟩ => ⟨S8x200x640, .f32⟩
  | .hbm, ⟨20, _⟩ => ⟨S8x50x640, .f32⟩
  | .hbm, ⟨21, _⟩ => ⟨S1x1x640, .f32⟩
  | .hbm, ⟨22, _⟩ => ⟨S8x50x640, .f32⟩
  | .hbm, ⟨23, _⟩ => ⟨S8x50x640, .f32⟩
  | .hbm, ⟨24, _⟩ => ⟨S8x200x1x640, .f32⟩
  | .hbm, ⟨25, _⟩ => ⟨S8x1x50x640, .f32⟩
  | .hbm, ⟨26, _⟩ => ⟨S8x200x50x640, .f32⟩
  | .hbm, ⟨27, _⟩ => ⟨S8x200x50x640, .f32⟩
  | .hbm, ⟨28, _⟩ => ⟨S8x200x50x640, .f32⟩
  | .hbm, ⟨29, _⟩ => ⟨S8x200x50x640, .f32⟩
  | .hbm, ⟨30, _⟩ => ⟨S8x200x50x1024, .f32⟩
  | .hbm, ⟨31, _⟩ => ⟨S1x1x1x1024, .f32⟩
  | .hbm, ⟨32, _⟩ => ⟨S8x200x50x1024, .f32⟩
  | .hbm, ⟨33, _⟩ => ⟨S8x200x50x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S8x200x640_0_1_2 : S1x1x640.BroadcastsInDim S8x200x640 (![0, 1, 2] : Fin 3 → Fin S8x200x640.rank)
  bcast_S1x1x640_S8x50x640_0_1_2 : S1x1x640.BroadcastsInDim S8x50x640 (![0, 1, 2] : Fin 3 → Fin S8x50x640.rank)
  bcast_S8x200x640_S8x200x1x640_0_1_3 : S8x200x640.BroadcastsInDim S8x200x1x640 (![0, 1, 3] : Fin 3 → Fin S8x200x1x640.rank)
  bcast_S8x50x640_S8x1x50x640_0_2_3 : S8x50x640.BroadcastsInDim S8x1x50x640 (![0, 2, 3] : Fin 3 → Fin S8x1x50x640.rank)
  bcast_S8x200x1x640_S8x200x50x640_0_1_2_3 : S8x200x1x640.BroadcastsInDim S8x200x50x640 (![0, 1, 2, 3] : Fin 4 → Fin S8x200x50x640.rank)
  bcast_S8x1x50x640_S8x200x50x640_0_1_2_3 : S8x1x50x640.BroadcastsInDim S8x200x50x640 (![0, 1, 2, 3] : Fin 4 → Fin S8x200x50x640.rank)
  bcast_S1024_S1x1x1x1024_3 : S1024.BroadcastsInDim S1x1x1x1024 (![3] : Fin 1 → Fin S1x1x1x1024.rank)
  bcast_S1x1x1x1024_S8x200x50x1024_0_1_2_3 : S1x1x1x1024.BroadcastsInDim S8x200x50x1024 (![0, 1, 2, 3] : Fin 4 → Fin S8x200x50x1024.rank)
  dot_S8x200x512_S512x640_S8x200x640_2_0_01_1_n_n_wf : DotDims.WF S8x200x512 S512x640 S8x200x640 [2] [0] [0, 1] [1] [] []
  dot_S8x50x512_S512x640_S8x50x640_2_0_01_1_n_n_wf : DotDims.WF S8x50x512 S512x640 S8x50x640 [2] [0] [0, 1] [1] [] []
  dot_S8x200x50x640_S640x1024_S8x200x50x1024_3_0_012_1_n_n_wf : DotDims.WF S8x200x50x640 S640x1024 S8x200x50x1024 [3] [0] [0, 1, 2] [1] [] []

variable [Facts₀]

def dot_S8x200x512_S512x640_S8x200x640_2_0_01_1_n_n : DotDims S8x200x512 S512x640 S8x200x640 where
  lhsContracting := [2]
  rhsContracting := [0]
  lhsNonContracting := [0, 1]
  rhsNonContracting := [1]
  lhsBatch := []
  rhsBatch := []
  wf := dot_S8x200x512_S512x640_S8x200x640_2_0_01_1_n_n_wf
def dot_S8x50x512_S512x640_S8x50x640_2_0_01_1_n_n : DotDims S8x50x512 S512x640 S8x50x640 where
  lhsContracting := [2]
  rhsContracting := [0]
  lhsNonContracting := [0, 1]
  rhsNonContracting := [1]
  lhsBatch := []
  rhsBatch := []
  wf := dot_S8x50x512_S512x640_S8x50x640_2_0_01_1_n_n_wf
def dot_S8x200x50x640_S640x1024_S8x200x50x1024_3_0_012_1_n_n : DotDims S8x200x50x640 S640x1024 S8x200x50x1024 where
  lhsContracting := [3]
  rhsContracting := [0]
  lhsNonContracting := [0, 1, 2]
  rhsNonContracting := [1]
  lhsBatch := []
  rhsBatch := []
  wf := dot_S8x200x50x640_S640x1024_S8x200x50x1024_3_0_012_1_n_n_wf

class Facts : Prop extends Facts₀ where

variable [Facts]
-- ==== Proof.KernelRun.lean ====
/-
  The kernel body run once on whole staging buffers, at any float instance: the projections are computed from the input
  blocks, sixteen groups of fifty activation rows are stored into the scratch at a stride of 56 rows, the whole scratch is
  read back and multiplied by the output weights, and sixteen groups of fifty rows of the product are stored into the
  output block. The run names what the output's buffer ends with as the list of those sixteen stores; the scratch goes
  in at given contents and comes back at some contents.
-/
import proofs.«164674_j32908039422062_2_alg».proof.Proof.Gen.Kernel.Frame
import proofs.«164674_j32908039422062_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers: the eleven inputs at their contents, the output's buffer at anything, the
    carried-over scratch at the contents `xs` it happens to hold. It runs to the inputs as they were, the scratch at
    some contents, and the output's buffer with the sixteen row-group stores written, piece by piece (last first). -/
noncomputable def kernelRun (c : Dev nD) (i : grid0.Coords) (arg2 : Memref sig .tc .vmem S1x16x512 .f32) (harg2 : arg2.IsWhole) (arg3 : Memref sig .tc .vmem S1x16x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg13 : Memref sig .tc .vmem S1x16x50x1024 .f32) (harg13 : arg13.IsWhole) (arg14 : Memref sig .tc .vmem S896x640 .f32) (harg14 : arg14.IsWhole)
    (x0 : Vec F S1x16x512 .f32) (x1 : Vec F S1x16x512 .f32) (x2 : Vec F S1x50x512 .f32) (x3 : Vec F S512x640 .bf16) (x4 : Vec F S640 .f32) (x5 : Vec F S512x640 .bf16) (x6 : Vec F S640 .f32) (x7 : Vec F S512x640 .bf16) (x8 : Vec F S640 .f32) (x9 : Vec F S640x1024 .bf16) (x10 : Vec F S1024 .f32) (xs : Vec F S896x640 .f32) :
    { L : List (View.Piece (Elt F) S1x16x50x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L) ∗ (∃ d, owns (c : Thread nD τ) arg14 fullShare d)) -∗ K ⟨⟩))
          ⊢ wp frame (wpE (defs₀ (F := F)) Variants.none c none) E (cc0__otguided_joint_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__otguided_joint_kernel_eq_skeleton]; unfold cc0__otguided_joint_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    iexists _, _; isplitr; swap; · iexact HS
    ipureintro; rfl

end Cert.Kernel.Body

end
-- ==== Proof.KernelFrame.lean ====
/-
  The word-level kernel's frame, at any float instance: the pipeline's data names each input window's block and leaves
  what the body stores in the output window unnamed (the frame says nothing of the result); the body's run discharges the
  body obligation at every grid point; every argument array ends as it was launched — a staged one because the pipeline
  only reads it, the others because no host line and no window writes them.
-/
import proofs.«164674_j32908039422062_2_alg».proof.Proof.Gen.Kernel.Frame
import proofs.«164674_j32908039422062_2_alg».proof.Proof.KernelRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window w's current staging buffer at grid point t, as the pipeline passes it to the body, and that it is a whole buffer. -/
abbrev stg0 (t : Fin cfg0.N) : Memref sig .tc .vmem S1x16x512 .f32 := win0_0.stage (cfg0.slots t 0)
abbrev whl0 (t : Fin cfg0.N) : (stg0 t).IsWhole := hstage0_0 ((cfg0.slots t 0).cast nbuf0_0)
abbrev stg1 (t : Fin cfg0.N) : Memref sig .tc .vmem S1x16x512 .f32 := win0_1.stage (cfg0.slots t 1)
abbrev whl1 (t : Fin cfg0.N) : (stg1 t).IsWhole := hstage0_1 ((cfg0.slots t 1).cast nbuf0_1)
abbrev stg2 (t : Fin cfg0.N) : Memref sig .tc .vmem S1x50x512 .f32 := win0_2.stage (cfg0.slots t 2)
abbrev whl2 (t : Fin cfg0.N) : (stg2 t).IsWhole := hstage0_2 ((cfg0.slots t 2).cast nbuf0_2)
abbrev stg3 (t : Fin cfg0.N) : Memref sig .tc .vmem S512x640 .bf16 := win0_3.stage (cfg0.slots t 3)
abbrev whl3 (t : Fin cfg0.N) : (stg3 t).IsWhole := hstage0_3 ((cfg0.slots t 3).cast nbuf0_3)
abbrev stg4 (t : Fin cfg0.N) : Memref sig .tc .vmem S640 .f32 := win0_4.stage (cfg0.slots t 4)
abbrev whl4 (t : Fin cfg0.N) : (stg4 t).IsWhole := hstage0_4 ((cfg0.slots t 4).cast nbuf0_4)
abbrev stg5 (t : Fin cfg0.N) : Memref sig .tc .vmem S512x640 .bf16 := win0_5.stage (cfg0.slots t 5)
abbrev whl5 (t : Fin cfg0.N) : (stg5 t).IsWhole := hstage0_5 ((cfg0.slots t 5).cast nbuf0_5)
abbrev stg6 (t : Fin cfg0.N) : Memref sig .tc .vmem S640 .f32 := win0_6.stage (cfg0.slots t 6)
abbrev whl6 (t : Fin cfg0.N) : (stg6 t).IsWhole := hstage0_6 ((cfg0.slots t 6).cast nbuf0_6)
abbrev stg7 (t : Fin cfg0.N) : Memref sig .tc .vmem S512x640 .bf16 := win0_7.stage (cfg0.slots t 7)
abbrev whl7 (t : Fin cfg0.N) : (stg7 t).IsWhole := hstage0_7 ((cfg0.slots t 7).cast nbuf0_7)
abbrev stg8 (t : Fin cfg0.N) : Memref sig .tc .vmem S640 .f32 := win0_8.stage (cfg0.slots t 8)
abbrev whl8 (t : Fin cfg0.N) : (stg8 t).IsWhole := hstage0_8 ((cfg0.slots t 8).cast nbuf0_8)
abbrev stg9 (t : Fin cfg0.N) : Memref sig .tc .vmem S640x1024 .bf16 := win0_9.stage (cfg0.slots t 9)
abbrev whl9 (t : Fin cfg0.N) : (stg9 t).IsWhole := hstage0_9 ((cfg0.slots t 9).cast nbuf0_9)
abbrev stg10 (t : Fin cfg0.N) : Memref sig .tc .vmem S1024 .f32 := win0_10.stage (cfg0.slots t 10)
abbrev whl10 (t : Fin cfg0.N) : (stg10 t).IsWhole := hstage0_10 ((cfg0.slots t 10).cast nbuf0_10)
abbrev stg11 (t : Fin cfg0.N) : Memref sig .tc .vmem S1x16x50x1024 .f32 := win0_11.stage (cfg0.slots t 11)
abbrev whl11 (t : Fin cfg0.N) : (stg11 t).IsWhole := hstage0_11 ((cfg0.slots t 11).cast nbuf0_11)
/-- The staging scratch the body keeps beside the windows: a whole buffer of the kernel's own. -/
abbrev scr : Memref sig .tc .vmem S896x640 .f32 := Memref.whole cc0_scratch0

/-- The region's invariant is the scratch at some contents and the generator register at some state. -/
theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The frame says nothing of the result array, so the output window (11) is left unnamed. -/
def outOnly : Fin 12 → Bool := fun w => w.val == 11

/-- The pipeline's data on core c: every input window's buffer holds its block of the array the region found, at every
    point; what the body leaves in the output window is not named; the invariant never changes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is handed at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare d))

/-- and what it hands back. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ (∃ d, owns (c : Thread nD τ) (stg11 t) fullShare d))

set_option maxHeartbeats 1600000 in
/-- The body at any point: the inputs' buffers hold their blocks, so the body's run applies; the scratch goes in and comes
    back at some contents, the output's buffer likewise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, inv_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ds).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS]; · iexact HS
  iintro ⟨H0, H1, H2, H3, H4, H5, H6, H7, H8, H9, H10, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; unfold owns; iexists _; isplitr; swap; · iexact H11
  ipureintro; rfl

theorem body_obligation (c : Dev nD) : BodyObligation (dats (F := F) m 0 c) (defs₀ (F := F)) Variants.none () Set.univ outOnly := fun t => by
  rw [bigSep_W0, bigSep_W0]
  exact sound_body m c t

/-- The one buffer the host line after the region writes: the sliced result. -/
def tailWrites : Finset (Ref sig .tc) := {main_v7}

theorem tail_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  subst hops
  simp only [hostOps1, List.mem_cons, List.mem_nil_iff, or_false] at hop
  subst hop
  intro b hb
  simp only [StableHlo.unary_writes, Finset.mem_singleton] at hb
  cases Proc.devRef_injective _ hb
  decide

set_option backward.isDefEq.respectTransparency.types false in
/-- Every weakly fair execution of @main terminates; at the end every input array of the pipeline is unchanged and every
    other buffer the tail does not write holds what it held when the region was entered. -/
theorem run_main : θ_run defs (onTc (τ := τ) (main (F := F))) (s₀ m ρ) (Pipeline.RDat.FramePostR (cfgs 0) (fun c => (dats m 0 c).toRForget outOnly) tailWrites (V m)) :=
  Pipeline.RDat.θ_run_frame_around_T cfgs (0 : Fin 1) launch0 defs₀ Variants.none (fun c => (dats m 0 c).toRForget outOnly) tailWrites m ρ main
    (hbody := fun c => (body_obligation m c).toRForget) (hshare := fun c => ((dats m 0 c).toRForget outOnly).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)

/-- An argument that some window stages ends at the contents it was launched with. -/
theorem staged_kept (r : PUnit × MemSt nD τ sig (Elt F)) (h : Pipeline.RDat.FramePostR (cfgs 0) (fun c => (dats m 0 c).toRForget outOnly) tailWrites (V m) r)
    (c : Dev nD) (w : Fin cfg0.W) (hw : (cfg0.win w).isOut = false) :
    r.2.mem ((cfg0.spec w).arr.view.loc (c.tc : Thread nD τ)) = V m c (Pipeline.arrRef spec0 w) :=
  (Eq.mp (congrFun (((dats m 0 c).toRForget outOnly).ArrAt_in w hw _) _) ((h c).1 w)).trans (A_eq m c w)

/-- An argument no window stages and the tail does not write ends at the contents the region found. -/
theorem bypass_kept (r : PUnit × MemSt nD τ sig (Elt F)) (h : Pipeline.RDat.FramePostR (cfgs 0) (fun c => (dats m 0 c).toRForget outOnly) tailWrites (V m) r)
    (c : Dev nD) (b : Ref sig .tc) (hs : b.isScoped = false) (ha : ∀ w, (spec0 w).arr.view.ref ≠ b) (hn : b ∉ tailWrites) :
    r.2.mem ((c.tc : Thread nD τ).loc b) = V m c b :=
  (h c).2 b (Finset.mem_sdiff.mpr ⟨Pipeline.mem_restRefs_of b hs ha, hn⟩)

/-- The word-level kernel's frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (bypass_kept m r h c main_arg0 (by decide) (by decide) (by decide)).trans (V_main_arg0 m c),
    (staged_kept m r h c 2 rfl).trans (V_main_arg1 m c),
    (bypass_kept m r h c main_arg2 (by decide) (by decide) (by decide)).trans (V_main_arg2 m c),
    (bypass_kept m r h c main_arg3 (by decide) (by decide) (by decide)).trans (V_main_arg3 m c),
    (staged_kept m r h c 4 rfl).trans (V_main_arg4 m c),
    (bypass_kept m r h c main_arg5 (by decide) (by decide) (by decide)).trans (V_main_arg5 m c),
    (staged_kept m r h c 6 rfl).trans (V_main_arg6 m c),
    (bypass_kept m r h c main_arg7 (by decide) (by decide) (by decide)).trans (V_main_arg7 m c),
    (staged_kept m r h c 8 rfl).trans (V_main_arg8 m c),
    (bypass_kept m r h c main_arg9 (by decide) (by decide) (by decide)).trans (V_main_arg9 m c),
    (staged_kept m r h c 10 rfl).trans (V_main_arg10 m c)⟩) (run_main m ρ)

end Cert.Kernel.Body

end
-- ==== Proof.KernelIdealRun.lean ====
/-
  The kernel body run once on whole staging buffers, at any float instance: the projections are computed from the input
  blocks, sixteen groups of fifty activation rows are stored into the scratch at a stride of 56 rows, the whole scratch is
  read back and multiplied by the output weights, and sixteen groups of fifty rows of the product are stored into the
  output block. The run names what the output's buffer ends with as the list of those sixteen stores; the scratch goes
  in at given contents and comes back at some contents.
-/
import proofs.«164674_j32908039422062_2_alg».proof.Proof.Gen.KernelIdeal.Frame
import proofs.«164674_j32908039422062_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers: the eleven inputs at their contents, the output's buffer at anything, the
    carried-over scratch at the contents `xs` it happens to hold. It runs to the inputs as they were, the scratch at
    some contents, and the output's buffer with the sixteen row-group stores written, piece by piece (last first). -/
noncomputable def kernelRun (c : Dev nD) (i : grid0.Coords) (arg2 : Memref sig .tc .vmem S1x16x512 .f32) (harg2 : arg2.IsWhole) (arg3 : Memref sig .tc .vmem S1x16x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg13 : Memref sig .tc .vmem S1x16x50x1024 .f32) (harg13 : arg13.IsWhole) (arg14 : Memref sig .tc .vmem S896x640 .f32) (harg14 : arg14.IsWhole)
    (x0 : Vec F S1x16x512 .f32) (x1 : Vec F S1x16x512 .f32) (x2 : Vec F S1x50x512 .f32) (x3 : Vec F S512x640 .bf16) (x4 : Vec F S640 .f32) (x5 : Vec F S512x640 .bf16) (x6 : Vec F S640 .f32) (x7 : Vec F S512x640 .bf16) (x8 : Vec F S640 .f32) (x9 : Vec F S640x1024 .bf16) (x10 : Vec F S1024 .f32) (xs : Vec F S896x640 .f32) :
    { L : List (View.Piece (Elt F) S1x16x50x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L) ∗ (∃ d, owns (c : Thread nD τ) arg14 fullShare d)) -∗ K ⟨⟩))
          ⊢ wp frame (wpE (defs₀ (F := F)) Variants.none c none) E (cc0__otguided_joint_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__otguided_joint_kernel_eq_skeleton]; unfold cc0__otguided_joint_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    iexists _, _; isplitr; swap; · iexact HS
    ipureintro; rfl

end Cert.KernelIdeal.Body

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.KernelIdealPay.lean ====
/-
  The body's arithmetic over the extended reals, read at an index: the three matrix products as sums over the contracted
  index, the two projection terms, one time step's rows tanh(fused(s, ·) + proj), the flat logits' rows, and a block of
  fifty logits rows viewed as rows of the output block. Conversions to the narrower float format are the identity here.
-/
import proofs.«164674_j32908039422062_2_alg».proof.Proof.Gen.KernelIdeal.Skeleton
import proofs.«164674_j32908039422062_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-! ## The three matrix products of the body, over the extended reals -/

theorem mm50 (l : FVec Ideal S50x512 .bf16) (r : FVec Ideal S512x640 .bf16) (p : Fin 50) (q : Fin 640) :
    matmul dot_S50x512_S512x640_S50x640_1_0_0_1_n_n none l r (constant S50x640 .f32 0x00000000#32) (ix2 p q)
      = ∑ k : Fin 512, l (ix2 p k) * r (ix2 k q) :=
  PlainMatmul.matmul_zero_apply dot_S50x512_S512x640_S50x640_1_0_0_1_n_n.wf none l r p q

theorem mm16 (l : FVec Ideal S16x512 .bf16) (r : FVec Ideal S512x640 .bf16) (p : Fin 16) (q : Fin 640) :
    matmul dot_S16x512_S512x640_S16x640_1_0_0_1_n_n none l r (constant S16x640 .f32 0x00000000#32) (ix2 p q)
      = ∑ k : Fin 512, l (ix2 p k) * r (ix2 k q) :=
  PlainMatmul.matmul_zero_apply dot_S16x512_S512x640_S16x640_1_0_0_1_n_n.wf none l r p q

theorem mm896 (l : FVec Ideal S896x640 .bf16) (r : FVec Ideal S640x1024 .bf16) (p : Fin 896) (q : Fin 1024) :
    matmul dot_S896x640_S640x1024_S896x1024_1_0_0_1_n_n none l r (constant S896x1024 .f32 0x00000000#32) (ix2 p q)
      = ∑ k : Fin 640, l (ix2 p k) * r (ix2 k q) :=
  PlainMatmul.matmul_zero_apply dot_S896x640_S640x1024_S896x1024_1_0_0_1_n_n.wf none l r p q

/-! ## The projections -/

/-- The decoder projection of one batch row: entry (u, f) is the sum over d of dec(u, d) · W_dec(d, f), plus b_dec(f). -/
theorem proj_apply (x2 : Vec Ideal S1x50x512 .f32) (x7 : Vec Ideal S512x640 .bf16) (x8 : Vec Ideal S640 .f32)
    (u : Fin 50) (f : Fin 640) :
    k0_pay3 (F := Ideal) x2 x7 x8 (ix2 u f)
      = (∑ d : Fin 512, x2 (ix3 (0 : Fin 1) u d) * x7 (ix2 d f)) + x8 (ix1 f) := by
  unfold k0_pay3
  rw [addf_apply, mm50, broadcastTo_1b_ab_apply, shapeCast_a_1a_apply]
  refine congrArg (· + x8 (ix1 f)) (Finset.sum_congr rfl fun d _ => ?_)
  rw [truncf_apply, shapeCast_1ab_ab_apply, shapeCast_self]

/-- The fused encoder term of sixteen time steps: entry (j, f) is
    ((Σ_e enc(j, e) · W_enc(e, f)) + b_enc(f) + Σ_d ot(j, d) · W_ot(d, f)) + b_ot(f). -/
theorem fused_apply (x0 x1 : Vec Ideal S1x16x512 .f32) (x3 x5 : Vec Ideal S512x640 .bf16) (x4 x6 : Vec Ideal S640 .f32)
    (j : Fin 16) (f : Fin 640) :
    k0_pay5 (F := Ideal) x0 x1 x3 x5 x4 x6 (ix2 j f)
      = ((∑ e : Fin 512, x0 (ix3 (0 : Fin 1) j e) * x3 (ix2 e f)) + x4 (ix1 f)
          + ∑ d : Fin 512, x1 (ix3 (0 : Fin 1) j d) * x5 (ix2 d f)) + x6 (ix1 f) := by
  unfold k0_pay5
  rw [addf_apply, addf_apply, addf_apply, mm16, mm16, broadcastTo_1b_ab_apply, broadcastTo_1b_ab_apply,
    shapeCast_a_1a_apply, shapeCast_a_1a_apply]
  have e0 : ∀ e : Fin 512, (truncf .bf16 (shapeCast S16x512 x0 shapeCasts_S1x16x512_S16x512) bitsLt_bf16_f32 : FVec Ideal S16x512 .bf16) (ix2 j e)
      * (shapeCast S512x640 x3 shapeCasts_S512x640_S512x640) (ix2 e f) = x0 (ix3 (0 : Fin 1) j e) * x3 (ix2 e f) := fun e => by
    rw [truncf_apply, shapeCast_1ab_ab_apply, shapeCast_self]
  have e1 : ∀ e : Fin 512, (truncf .bf16 (shapeCast S16x512 x1 shapeCasts_S1x16x512_S16x512) bitsLt_bf16_f32 : FVec Ideal S16x512 .bf16) (ix2 j e)
      * (shapeCast S512x640 x5 shapeCasts_S512x640_S512x640) (ix2 e f) = x1 (ix3 (0 : Fin 1) j e) * x5 (ix2 e f) := fun e => by
    rw [truncf_apply, shapeCast_1ab_ab_apply, shapeCast_self]
  rw [Finset.sum_congr rfl fun e _ => e0 e, Finset.sum_congr rfl fun e _ => e1 e]

/-! ## One time step's rows of the joint activation -/

/-- Row group s of the staged activation: entry (u, f) is tanh(fused(s, f) + proj(u, f)). -/
theorem rows_apply (s : ℕ) (hs : s < 16) (h : S16x640.Slices ![s, 0] S1x640)
    (v9 : FVec Ideal S50x640 .f32) (v33 : FVec Ideal S16x640 .f32) (u : Fin 50) (f : Fin 640) :
    (tanh (addf (broadcastTo S50x640 (extractStridedSlice S1x640 ![s, 0] v33 h) broadcasts_S1x640_S50x640) v9) : FVec Ideal S50x640 .f32) (ix2 u f)
      = Ideal.tanh (v33 (ix2 (⟨s, hs⟩ : Fin 16) f) + v9 (ix2 u f)) := by
  show FloatOps.tanh (addf (broadcastTo S50x640 (extractStridedSlice S1x640 ![s, 0] v33 h) broadcasts_S1x640_S50x640) v9 (ix2 u f)) = _
  rw [Ideal.tanh_def, addf_apply, broadcastTo_1b_ab_apply, slice2_axis0_apply s v33 h (0 : Fin 1) f ⟨s, hs⟩ (by simp)]

/-! ## The vocabulary projection of the staged rows -/

/-- Row r, column v of the flat logits: the sum over f of the staged activation at (r, f) times W_out(f, v), plus b_out(v). -/
theorem logits_apply (v23 : FVec Ideal S640x1024 .bf16) (v24 : Vec Ideal S1024 .f32) (v146 : Vec Ideal S896x640 .f32)
    (r : Fin 896) (v : Fin 1024) :
    k0_pay22 (F := Ideal) v23 v24 v146 (ix2 r v)
      = (∑ f : Fin 640, v146 (ix2 r f) * v23 (ix2 f v)) + v24 (ix1 v) := by
  unfold k0_pay22
  rw [addf_apply, mm896, broadcastTo_1b_ab_apply, shapeCast_a_1a_apply]
  rfl

/-- A block of fifty rows cut from the flat logits at row offset o and viewed as [1, 1, 50, 1024]. -/
theorem cut_apply {F : FTy → Type} [FloatOps F] (o : ℕ) (h : S896x1024.Slices ![o, 0] S50x1024) (X : FVec F S896x1024 .f32)
    (a b : Fin 1) (u : Fin 50) (v : Fin 1024) (r : Fin 896) (hr : r.val = o + u.val) :
    shapeCast S1x1x50x1024 (extractStridedSlice S50x1024 ![o, 0] X h) shapeCasts_S50x1024_S1x1x50x1024 (ix4 a b u v)
      = X (ix2 r v) := by
  rw [shapeCast_apply (extractStridedSlice S50x1024 ![o, 0] X h) shapeCasts_S50x1024_S1x1x50x1024 (ix4 a b u v) (ix2 u v) (by
    have ha : a.val = 0 := by omega
    have hb : b.val = 0 := by omega
    rw [Shape.rowMajor_val_four, Shape.rowMajor_val_two]
    show u.val * 1024 + v.val = ((a.val * 1 + b.val) * 50 + u.val) * 1024 + v.val
    omega)]
  exact slice2_axis0_apply o X h u v r hr

end Cert.KernelIdeal.Pay

end
-- ==== Proof.KernelIdealStaged.lean ====
/-
  The staging scratch after the sixteen row-group stores: at row 56·s + u with u < 50 it holds
  tanh(fused(s, f) + proj(u, f)), whatever it held before; rows 56·s + 50 … 56·s + 55 are written by no store.
-/
import proofs.«164674_j32908039422062_2_alg».proof.Proof.KernelIdealPay
import Idealize.ShloMosaic.Lib.Writes
import Idealize.ShloMosaic.Lib.WritesUnit

set_option maxRecDepth 16384

noncomputable section

namespace Cert.KernelIdeal.Pay

open Cert.KernelIdeal Cert.KernelIdeal.Gen
open Idealize.ShloMosaic Idealize.ShloMosaic.ValueIdx

/-- The sixteen row-group stores into the staging scratch, the last one first: group s (rows 56·s … 56·s + 49) receives
    tanh(fused(s, ·) + proj). Rows 56·s + 50 … 56·s + 55 are written by no store. -/
def stagedPieces {F : FTy → Type} [FloatOps F] (v9 : FVec F S50x640 .f32) (v33 : FVec F S16x640 .f32) :
    List (View.Piece (Elt F) S896x640 .f32) :=
  [
    ⟨Rect.unit ![840, 0] S50x640.size inb_S896x640_S50x640_840_0, k0_pay21 v9 v33⟩,
    ⟨Rect.unit ![784, 0] S50x640.size inb_S896x640_S50x640_784_0, k0_pay20 v9 v33⟩,
    ⟨Rect.unit ![728, 0] S50x640.size inb_S896x640_S50x640_728_0, k0_pay19 v9 v33⟩,
    ⟨Rect.unit ![672, 0] S50x640.size inb_S896x640_S50x640_672_0, k0_pay18 v9 v33⟩,
    ⟨Rect.unit ![616, 0] S50x640.size inb_S896x640_S50x640_616_0, k0_pay17 v9 v33⟩,
    ⟨Rect.unit ![560, 0] S50x640.size inb_S896x640_S50x640_560_0, k0_pay16 v9 v33⟩,
    ⟨Rect.unit ![504, 0] S50x640.size inb_S896x640_S50x640_504_0, k0_pay15 v9 v33⟩,
    ⟨Rect.unit ![448, 0] S50x640.size inb_S896x640_S50x640_448_0, k0_pay14 v9 v33⟩,
    ⟨Rect.unit ![392, 0] S50x640.size inb_S896x640_S50x640_392_0, k0_pay13 v9 v33⟩,
    ⟨Rect.unit ![336, 0] S50x640.size inb_S896x640_S50x640_336_0, k0_pay12 v9 v33⟩,
    ⟨Rect.unit ![280, 0] S50x640.size inb_S896x640_S50x640_280_0, k0_pay11 v9 v33⟩,
    ⟨Rect.unit ![224, 0] S50x640.size inb_S896x640_S50x640_224_0, k0_pay10 v9 v33⟩,
    ⟨Rect.unit ![168, 0] S50x640.size inb_S896x640_S50x640_168_0, k0_pay9 v9 v33⟩,
    ⟨Rect.unit ![112, 0] S50x640.size inb_S896x640_S50x640_112_0, k0_pay8 v9 v33⟩,
    ⟨Rect.unit ![56, 0] S50x640.size inb_S896x640_S50x640_56_0, k0_pay7 v9 v33⟩,
    ⟨Rect.unit ![0, 0] S50x640.size inb_S896x640_S50x640_0_0, k0_pay6 v9 v33⟩ ]

/-- What a stored row of the scratch holds, as one function of the row and column: at row 56·s + u with u < 50 it is
    tanh(fused(s, f) + proj(u, f)); the value given at the six rows of a group that no store writes is never used. -/
def stagedFn (v9 : FVec Ideal S50x640 .f32) (v33 : FVec Ideal S16x640 .f32) : S896x640.Idx → EReal := fun y =>
  Ideal.tanh (v33 (ix2 (⟨(y 0).val / 56, by have := (y 0).isLt; show _ < 16; change (y 0).val < 896 at this; omega⟩ : Fin 16) (y 1))
    + v9 (ix2 (⟨min ((y 0).val % 56) 49, by show _ < 50; omega⟩ : Fin 50) (y 1)))

theorem stagedFn_at (v9 : FVec Ideal S50x640 .f32) (v33 : FVec Ideal S16x640 .f32) (s : Fin 16) (u : Fin 50) (f : Fin 640)
    (y : S896x640.Idx) (h0 : (y 0).val = 56 * s.val + u.val) (h1 : (y 1).val = f.val) :
    stagedFn v9 v33 y = Ideal.tanh (v33 (ix2 s f) + v9 (ix2 u f)) := by
  unfold stagedFn
  have hu := u.isLt
  have e1 : (y 1 : Fin 640) = f := Fin.ext h1
  have es : (⟨(y 0).val / 56, by have := (y 0).isLt; show _ < 16; change (y 0).val < 896 at this; omega⟩ : Fin 16) = s :=
    Fin.ext (by show (y 0).val / 56 = s.val; omega)
  have eu : (⟨min ((y 0).val % 56) 49, by show _ < 50; omega⟩ : Fin 50) = u :=
    Fin.ext (by show min ((y 0).val % 56) 49 = u.val; omega)
  rw [es, eu, e1]

/-- One store's payload agrees with that function on the store's rectangle. -/
theorem piece_ok (s : ℕ) (hs : s < 16) (h : S16x640.Slices ![s, 0] S1x640) (inb : ∀ a, (![56 * s, 0] : Fin 2 → ℕ) a + S50x640.size a ≤ S896x640.size a)
    (v9 : FVec Ideal S50x640 .f32) (v33 : FVec Ideal S16x640 .f32)
    (x : (Rect.unit (s := S896x640) ![56 * s, 0] S50x640.size inb).shape.Idx) :
    (shapeCast S50x640 (tanh (addf (broadcastTo S50x640 (extractStridedSlice S1x640 ![s, 0] v33 h) broadcasts_S1x640_S50x640) v9)) shapeCasts_S50x640_S50x640 : FVec Ideal S50x640 .f32) x
      = stagedFn v9 v33 ((Rect.unit (s := S896x640) ![56 * s, 0] S50x640.size inb).emb x) := by
  rw [shapeCast_self]
  obtain ⟨u, f, rfl⟩ : ∃ (u : Fin 50) (f : Fin 640), x = ix2 u f := ⟨x 0, x 1, eq_ix2 x⟩
  rw [rows_apply s hs h v9 v33 u f]
  exact (stagedFn_at v9 v33 ⟨s, hs⟩ u f _ (by show 56 * s + 1 * u.val = 56 * s + u.val; omega) (by show 0 + 1 * f.val = f.val; omega)).symm

/-- The scratch read after the sixteen stores, at row 56·s + u with u < 50: tanh(fused(s, f) + proj(u, f)), whatever the
    scratch held before the stores. -/
theorem staged_read {sig' : RefSig} {κ : Kind} {sp : Space} (w : View sig' κ sp S896x640 .f32) (g : w.ty.Contents (Elt Ideal))
    (v9 : FVec Ideal S50x640 .f32) (v33 : FVec Ideal S16x640 .f32) (s : Fin 16) (u : Fin 50) (f : Fin 640) (r : Fin 896)
    (hr : r.val = 56 * s.val + u.val) :
    w.read (Elt Ideal) (w.writes (Elt Ideal) g (stagedPieces v9 v33)) (ix2 r f) = Ideal.tanh (v33 (ix2 s f) + v9 (ix2 u f)) := by
  have hu := u.isLt
  have hs := s.isLt
  rw [View.read_writes_apply_of_pieces w g (stagedFn v9 v33) (stagedPieces v9 v33) ?hG (ix2 r f) ?hcov]
  · exact stagedFn_at v9 v33 s u f _ hr rfl
  case hG =>
    intro p hp
    simp only [stagedPieces, List.mem_cons, List.mem_nil_iff, or_false] at hp
    rcases hp with rfl | rfl | rfl | rfl | rfl | rfl | rfl | rfl | rfl | rfl | rfl | rfl | rfl | rfl | rfl | rfl
    · exact fun x => piece_ok 15 (by decide) slices_S16x640_o15_0_S1x640 inb_S896x640_S50x640_840_0 v9 v33 x
    · exact fun x => piece_ok 14 (by decide) slices_S16x640_o14_0_S1x640 inb_S896x640_S50x640_784_0 v9 v33 x
    · exact fun x => piece_ok 13 (by decide) slices_S16x640_o13_0_S1x640 inb_S896x640_S50x640_728_0 v9 v33 x
    · exact fun x => piece_ok 12 (by decide) slices_S16x640_o12_0_S1x640 inb_S896x640_S50x640_672_0 v9 v33 x
    · exact fun x => piece_ok 11 (by decide) slices_S16x640_o11_0_S1x640 inb_S896x640_S50x640_616_0 v9 v33 x
    · exact fun x => piece_ok 10 (by decide) slices_S16x640_o10_0_S1x640 inb_S896x640_S50x640_560_0 v9 v33 x
    · exact fun x => piece_ok 9 (by decide) slices_S16x640_o9_0_S1x640 inb_S896x640_S50x640_504_0 v9 v33 x
    · exact fun x => piece_ok 8 (by decide) slices_S16x640_o8_0_S1x640 inb_S896x640_S50x640_448_0 v9 v33 x
    · exact fun x => piece_ok 7 (by decide) slices_S16x640_o7_0_S1x640 inb_S896x640_S50x640_392_0 v9 v33 x
    · exact fun x => piece_ok 6 (by decide) slices_S16x640_o6_0_S1x640 inb_S896x640_S50x640_336_0 v9 v33 x
    · exact fun x => piece_ok 5 (by decide) slices_S16x640_o5_0_S1x640 inb_S896x640_S50x640_280_0 v9 v33 x
    · exact fun x => piece_ok 4 (by decide) slices_S16x640_o4_0_S1x640 inb_S896x640_S50x640_224_0 v9 v33 x
    · exact fun x => piece_ok 3 (by decide) slices_S16x640_o3_0_S1x640 inb_S896x640_S50x640_168_0 v9 v33 x
    · exact fun x => piece_ok 2 (by decide) slices_S16x640_o2_0_S1x640 inb_S896x640_S50x640_112_0 v9 v33 x
    · exact fun x => piece_ok 1 (by decide) slices_S16x640_o1_0_S1x640 inb_S896x640_S50x640_56_0 v9 v33 x
    · exact fun x => piece_ok 0 (by decide) slices_S16x640_o0_0_S1x640 inb_S896x640_S50x640_0_0 v9 v33 x
  case hcov =>
    obtain ⟨sv, hsv⟩ := s
    have hmem : ∀ (o : ℕ) (inb : ∀ a, (![o, 0] : Fin 2 → ℕ) a + S50x640.size a ≤ S896x640.size a), o = 56 * sv →
        (ix2 r f : S896x640.Idx) ∈ (Rect.unit (s := S896x640) ![o, 0] S50x640.size inb).set := by
      intro o inb ho
      rw [Rect.mem_set_unit]
      intro a
      match a with
      | ⟨0, _⟩ => show o ≤ r.val ∧ r.val < o + 50; simp only at hr; omega
      | ⟨1, _⟩ => show 0 ≤ f.val ∧ f.val < 0 + 640; have := f.isLt; omega
    unfold stagedPieces
    interval_cases sv
    · exact ⟨⟨Rect.unit ![0, 0] S50x640.size inb_S896x640_S50x640_0_0, k0_pay6 v9 v33⟩, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), hmem 0 inb_S896x640_S50x640_0_0 rfl⟩
    · exact ⟨⟨Rect.unit ![56, 0] S50x640.size inb_S896x640_S50x640_56_0, k0_pay7 v9 v33⟩, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), hmem 56 inb_S896x640_S50x640_56_0 rfl⟩
    · exact ⟨⟨Rect.unit ![112, 0] S50x640.size inb_S896x640_S50x640_112_0, k0_pay8 v9 v33⟩, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), hmem 112 inb_S896x640_S50x640_112_0 rfl⟩
    · exact ⟨⟨Rect.unit ![168, 0] S50x640.size inb_S896x640_S50x640_168_0, k0_pay9 v9 v33⟩, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), hmem 168 inb_S896x640_S50x640_168_0 rfl⟩
    · exact ⟨⟨Rect.unit ![224, 0] S50x640.size inb_S896x640_S50x640_224_0, k0_pay10 v9 v33⟩, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), hmem 224 inb_S896x640_S50x640_224_0 rfl⟩
    · exact ⟨⟨Rect.unit ![280, 0] S50x640.size inb_S896x640_S50x640_280_0, k0_pay11 v9 v33⟩, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), hmem 280 inb_S896x640_S50x640_280_0 rfl⟩
    · exact ⟨⟨Rect.unit ![336, 0] S50x640.size inb_S896x640_S50x640_336_0, k0_pay12 v9 v33⟩, List.Mem.tail _ (List.Mem.tail _ (List.Mem.tail _ (List.Mem.tail _ (List.Mem.tail _ (List.Mem.tail _ (List.Mem.tail _ (List.Mem.tail _ (List.Mem.tail _ (List.Mem.head _))))))))), hmem 336 inb_S896x640_S50x640_336_0 rfl⟩
    · exact ⟨⟨Rect.unit ![392, 0] S50x640.size inb_S896x640_S50x640_392_0, k0_pay13 v9 v33⟩, List.Mem.tail _ (List.Mem.tail _ (List.Mem.tail _ (List.Mem.tail _ (List.Mem.tail _ (List.Mem.tail _ (List.Mem.tail _ (List.Mem.tail _ (List.Mem.head _)))))))), hmem 392 inb_S896x640_S50x640_392_0 rfl⟩
    · exact ⟨⟨Rect.unit ![448, 0] S50x640.size inb_S896x640_S50x640_448_0, k0_pay14 v9 v33⟩, List.Mem.tail _ (List.Mem.tail _ (List.Mem.tail _ (List.Mem.tail _ (List.Mem.tail _ (List.Mem.tail _ (List.Mem.tail _ (List.Mem.head _))))))), hmem 448 inb_S896x640_S50x640_448_0 rfl⟩
    · exact ⟨⟨Rect.unit ![504, 0] S50x640.size inb_S896x640_S50x640_504_0, k0_pay15 v9 v33⟩, List.Mem.tail _ (List.Mem.tail _ (List.Mem.tail _ (List.Mem.tail _ (List.Mem.tail _ (List.Mem.tail _ (List.Mem.head _)))))), hmem 504 inb_S896x640_S50x640_504_0 rfl⟩
    · exact ⟨⟨Rect.unit ![560, 0] S50x640.size inb_S896x640_S50x640_560_0, k0_pay16 v9 v33⟩, List.Mem.tail _ (List.Mem.tail _ (List.Mem.tail _ (List.Mem.tail _ (List.Mem.tail _ (List.Mem.head _))))), hmem 560 inb_S896x640_S50x640_560_0 rfl⟩
    · exact ⟨⟨Rect.unit ![616, 0] S50x640.size inb_S896x640_S50x640_616_0, k0_pay17 v9 v33⟩, List.Mem.tail _ (List.Mem.tail _ (List.Mem.tail _ (List.Mem.tail _ (List.Mem.head _)))), hmem 616 inb_S896x640_S50x640_616_0 rfl⟩
    · exact ⟨⟨Rect.unit ![672, 0] S50x640.size inb_S896x640_S50x640_672_0, k0_pay18 v9 v33⟩, List.Mem.tail _ (List.Mem.tail _ (List.Mem.tail _ (List.Mem.head _))), hmem 672 inb_S896x640_S50x640_672_0 rfl⟩
    · exact ⟨⟨Rect.unit ![728, 0] S50x640.size inb_S896x640_S50x640_728_0, k0_pay19 v9 v33⟩, List.Mem.tail _ (List.Mem.tail _ (List.Mem.head _)), hmem 728 inb_S896x640_S50x640_728_0 rfl⟩
    · exact ⟨⟨Rect.unit ![784, 0] S50x640.size inb_S896x640_S50x640_784_0, k0_pay20 v9 v33⟩, List.Mem.tail _ (List.Mem.head _), hmem 784 inb_S896x640_S50x640_784_0 rfl⟩
    · exact ⟨⟨Rect.unit ![840, 0] S50x640.size inb_S896x640_S50x640_840_0, k0_pay21 v9 v33⟩, List.Mem.head _, hmem 840 inb_S896x640_S50x640_840_0 rfl⟩

end Cert.KernelIdeal.Pay

end
-- ==== Proof.KernelIdealBlock.lean ====
/-
  What one grid point leaves in the output window's block, over the extended reals: row (j, u) of the block is row
  56·j + u of the flat logits, and a row of a matrix product reads only the same row of its left operand — here a row the
  j-th store wrote — so the block is one function of the point's input blocks, whatever the scratch held before.
-/
import proofs.«164674_j32908039422062_2_alg».proof.Proof.KernelIdealRun
import proofs.«164674_j32908039422062_2_alg».proof.Proof.KernelIdealStaged

set_option maxRecDepth 16384

noncomputable section

namespace Cert.KernelIdeal.Body

open Cert.KernelIdeal Cert.KernelIdeal.Gen Cert.KernelIdeal.Pay
open Idealize.ShloMosaic Idealize.ShloMosaic.TcCoe Idealize.ShloMosaic.ValueIdx Idealize.ShloMosaic.Tactic

theorem hz1 : (![0] : Fin 1 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- What one grid point leaves in the output window's block [1, 16, 50, 1024], over the extended reals, as a function of
    the point's eleven input blocks: at (·, j, u, v) the sum over f of tanh(fused(j, f) + proj(u, f)) · W_out(f, v), plus
    b_out(v) — fused and proj the two projection terms of the body. -/
def blockSpec (x0 : Vec Ideal S1x16x512 .f32) (x1 : Vec Ideal S1x16x512 .f32) (x2 : Vec Ideal S1x50x512 .f32) (x3 : Vec Ideal S512x640 .bf16) (x4 : Vec Ideal S640 .f32) (x5 : Vec Ideal S512x640 .bf16) (x6 : Vec Ideal S640 .f32) (x7 : Vec Ideal S512x640 .bf16) (x8 : Vec Ideal S640 .f32) (x9 : Vec Ideal S640x1024 .bf16) (x10 : Vec Ideal S1024 .f32) : Vec Ideal S1x16x50x1024 .f32 := fun y =>
  (∑ f : Fin 640, Ideal.tanh (k0_pay5 (F := Ideal) x0 x1 x3 x5 x4 x6 (ix2 (y 1) f) + k0_pay3 (F := Ideal) x2 x7 x8 (ix2 (y 2) f)) * x9 (ix2 f (y 3)))
    + x10 (ix1 (y 3))

/-- Row 56·j + u (u < 50) of the flat logits the body computes is the block's row (j, u): the row reads only the scratch's
    row 56·j + u, which the j-th store wrote, so it does not depend on what the scratch held before. -/
theorem logits_row (c : Dev nD) (arg2 : Memref sig .tc .vmem S1x16x512 .f32) (harg2 : arg2.IsWhole) (arg3 : Memref sig .tc .vmem S1x16x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg14 : Memref sig .tc .vmem S896x640 .f32) (harg14 : arg14.IsWhole) (x0 : Vec Ideal S1x16x512 .f32) (x1 : Vec Ideal S1x16x512 .f32) (x2 : Vec Ideal S1x50x512 .f32) (x3 : Vec Ideal S512x640 .bf16) (x4 : Vec Ideal S640 .f32) (x5 : Vec Ideal S512x640 .bf16) (x6 : Vec Ideal S640 .f32) (x7 : Vec Ideal S512x640 .bf16) (x8 : Vec Ideal S640 .f32) (x9 : Vec Ideal S640x1024 .bf16) (x10 : Vec Ideal S1024 .f32) (xs : Vec Ideal S896x640 .f32)
    (j : Fin 16) (u : Fin 50) (v : Fin 1024) (r : Fin 896) (hr : r.val = 56 * j.val + u.val) (y : S1x16x50x1024.Idx)
    (h1 : (y 1).val = j.val) (h2 : (y 2).val = u.val) (h3 : (y 3).val = v.val) :
    kernelRun.sl.r_4 (F := Ideal) c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs (ix2 r v)
      = blockSpec x0 x1 x2 x3 x4 x5 x6 x7 x8 x9 x10 y := by
  have e1 : (y 1 : Fin 16) = j := Fin.ext h1
  have e2 : (y 2 : Fin 50) = u := Fin.ext h2
  have e3 : (y 3 : Fin 1024) = v := Fin.ext h3
  unfold kernelRun.sl.r_4 blockSpec
  rw [logits_apply, e1, e2, e3]
  refine congrArg₂ (· + ·) (Finset.sum_congr rfl fun f _ => congrArg₂ (· * ·) ?_ ?_) ?_
  · unfold kernelRun.sl.v146
    rw [View.readAt_eq_ld, View.ld_unit_zero (S := S896x640) hz2]
    show arg14.view.read (Elt Ideal) (arg14.view.writes (Elt Ideal) (harg14.unread xs)
      (stagedPieces (kernelRun.sl.r c arg4 harg4 arg9 harg9 arg10 harg10 x2 x7 x8)
        (kernelRun.sl.r_3 c arg2 harg2 arg3 harg3 arg5 harg5 arg6 harg6 arg7 harg7 arg8 harg8 x0 x1 x3 x4 x5 x6))) (ix2 r f) = _
    rw [staged_read _ _ _ _ j u f r hr]
    unfold kernelRun.sl.r kernelRun.sl.r_3
    simp only [View.readAt_eq_ld, harg2.read_unread, harg3.read_unread, harg4.read_unread, harg5.read_unread, harg6.read_unread,
      harg7.read_unread, harg8.read_unread, harg9.read_unread, harg10.read_unread,
      View.ld_unit_zero (S := S1x16x512) hz3, View.ld_unit_zero (S := S1x50x512) hz3, View.ld_unit_zero (S := S512x640) hz2,
      View.ld_unit_zero (S := S640) hz1]
  · unfold kernelRun.sl.r_1 k0_pay4
    simp only [View.readAt_eq_ld, harg11.read_unread, View.ld_unit_zero (S := S640x1024) hz2, shapeCast_self]
  · unfold kernelRun.sl.r_2
    simp only [View.readAt_eq_ld, harg12.read_unread]
    exact congrFun (View.ld_unit_zero (S := S1024) hz1 _ x10) (ix1 v)

/-- One of the sixteen output stores: the fifty rows cut from the flat logits at row 56·s, viewed as the block's rows
    (·, s, ·, ·), agree with the block function on the store's rectangle. -/
theorem out_piece (c : Dev nD) (arg2 : Memref sig .tc .vmem S1x16x512 .f32) (harg2 : arg2.IsWhole) (arg3 : Memref sig .tc .vmem S1x16x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg14 : Memref sig .tc .vmem S896x640 .f32) (harg14 : arg14.IsWhole) (x0 : Vec Ideal S1x16x512 .f32) (x1 : Vec Ideal S1x16x512 .f32) (x2 : Vec Ideal S1x50x512 .f32) (x3 : Vec Ideal S512x640 .bf16) (x4 : Vec Ideal S640 .f32) (x5 : Vec Ideal S512x640 .bf16) (x6 : Vec Ideal S640 .f32) (x7 : Vec Ideal S512x640 .bf16) (x8 : Vec Ideal S640 .f32) (x9 : Vec Ideal S640x1024 .bf16) (x10 : Vec Ideal S1024 .f32) (xs : Vec Ideal S896x640 .f32)
    (s : ℕ) (hs : s < 16) (hsl : S896x1024.Slices ![56 * s, 0] S50x1024)
    (inb : ∀ a, (![0, s, 0, 0] : Fin 4 → ℕ) a + S1x1x50x1024.size a ≤ S1x16x50x1024.size a)
    (x : (Rect.unit (s := S1x16x50x1024) ![0, s, 0, 0] S1x1x50x1024.size inb).shape.Idx) :
    shapeCast S1x1x50x1024 (extractStridedSlice S50x1024 ![56 * s, 0]
        (kernelRun.sl.r_4 (F := Ideal) c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs) hsl) shapeCasts_S50x1024_S1x1x50x1024 x
      = blockSpec x0 x1 x2 x3 x4 x5 x6 x7 x8 x9 x10 ((Rect.unit (s := S1x16x50x1024) ![0, s, 0, 0] S1x1x50x1024.size inb).emb x) := by
  obtain ⟨a, b, u, v, rfl⟩ : ∃ (a b : Fin 1) (u : Fin 50) (v : Fin 1024), x = ix4 a b u v := ⟨x 0, x 1, x 2, x 3, eq_ix4 x⟩
  have hu := u.isLt
  rw [cut_apply (56 * s) hsl _ a b u v ⟨56 * s + u.val, by omega⟩ rfl]
  exact logits_row c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs ⟨s, hs⟩ u v _ rfl _
    (by show s + 1 * b.val = s; omega) (by show 0 + 1 * u.val = u.val; omega) (by show 0 + 1 * v.val = v.val; omega)

/-- The sixteen stores tile the output block. -/
theorem out_cover (c : Dev nD) (i : grid0.Coords) (arg2 : Memref sig .tc .vmem S1x16x512 .f32) (harg2 : arg2.IsWhole) (arg3 : Memref sig .tc .vmem S1x16x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg13 : Memref sig .tc .vmem S1x16x50x1024 .f32) (harg13 : arg13.IsWhole) (arg14 : Memref sig .tc .vmem S896x640 .f32) (harg14 : arg14.IsWhole) (x0 : Vec Ideal S1x16x512 .f32) (x1 : Vec Ideal S1x16x512 .f32) (x2 : Vec Ideal S1x50x512 .f32) (x3 : Vec Ideal S512x640 .bf16) (x4 : Vec Ideal S640 .f32) (x5 : Vec Ideal S512x640 .bf16) (x6 : Vec Ideal S640 .f32) (x7 : Vec Ideal S512x640 .bf16) (x8 : Vec Ideal S640 .f32) (x9 : Vec Ideal S640x1024 .bf16) (x10 : Vec Ideal S1024 .f32) (xs : Vec Ideal S896x640 .f32) (y : S1x16x50x1024.Idx) :
    ∃ pc ∈ (kernelRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xs).1, y ∈ pc.1.set :=
  View.cover_of_tiledL (kernelRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xs).1 S1x1x50x1024.size (by sl_kernel_rfl) y

set_option maxHeartbeats 2000000 in
/-- What the body leaves in the output window's buffer is the block function of the input blocks — whatever the
    buffer and the scratch held before. -/
theorem block_value (c : Dev nD) (i : grid0.Coords) (arg2 : Memref sig .tc .vmem S1x16x512 .f32) (harg2 : arg2.IsWhole) (arg3 : Memref sig .tc .vmem S1x16x512 .f32) (harg3 : arg3.IsWhole) (arg4 : Memref sig .tc .vmem S1x50x512 .f32) (harg4 : arg4.IsWhole) (arg5 : Memref sig .tc .vmem S512x640 .bf16) (harg5 : arg5.IsWhole) (arg6 : Memref sig .tc .vmem S640 .f32) (harg6 : arg6.IsWhole) (arg7 : Memref sig .tc .vmem S512x640 .bf16) (harg7 : arg7.IsWhole) (arg8 : Memref sig .tc .vmem S640 .f32) (harg8 : arg8.IsWhole) (arg9 : Memref sig .tc .vmem S512x640 .bf16) (harg9 : arg9.IsWhole) (arg10 : Memref sig .tc .vmem S640 .f32) (harg10 : arg10.IsWhole) (arg11 : Memref sig .tc .vmem S640x1024 .bf16) (harg11 : arg11.IsWhole) (arg12 : Memref sig .tc .vmem S1024 .f32) (harg12 : arg12.IsWhole) (arg13 : Memref sig .tc .vmem S1x16x50x1024 .f32) (harg13 : arg13.IsWhole) (arg14 : Memref sig .tc .vmem S896x640 .f32) (harg14 : arg14.IsWhole) (x0 : Vec Ideal S1x16x512 .f32) (x1 : Vec Ideal S1x16x512 .f32) (x2 : Vec Ideal S1x50x512 .f32) (x3 : Vec Ideal S512x640 .bf16) (x4 : Vec Ideal S640 .f32) (x5 : Vec Ideal S512x640 .bf16) (x6 : Vec Ideal S640 .f32) (x7 : Vec Ideal S512x640 .bf16) (x8 : Vec Ideal S640 .f32) (x9 : Vec Ideal S640x1024 .bf16) (x10 : Vec Ideal S1024 .f32) (xs : Vec Ideal S896x640 .f32)
    (g : arg13.view.ty.Contents (Elt Ideal)) :
    arg13.view.read (Elt Ideal) (arg13.view.writes (Elt Ideal) g (kernelRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xs).1)
      = blockSpec x0 x1 x2 x3 x4 x5 x6 x7 x8 x9 x10 := by
  funext y
  refine View.read_writes_apply_of_pieces arg13.view g (blockSpec x0 x1 x2 x3 x4 x5 x6 x7 x8 x9 x10) _ ?hG y (out_cover c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xs y)
  unfold kernelRun
  dsimp only
  intro p hp
  simp only [List.mem_cons, List.mem_nil_iff, or_false] at hp
  rcases hp with rfl | rfl | rfl | rfl | rfl | rfl | rfl | rfl | rfl | rfl | rfl | rfl | rfl | rfl | rfl | rfl
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 15 (by decide) slices_S896x1024_o840_0_S50x1024 inb_S1x16x50x1024_S1x1x50x1024_0_15_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 14 (by decide) slices_S896x1024_o784_0_S50x1024 inb_S1x16x50x1024_S1x1x50x1024_0_14_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 13 (by decide) slices_S896x1024_o728_0_S50x1024 inb_S1x16x50x1024_S1x1x50x1024_0_13_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 12 (by decide) slices_S896x1024_o672_0_S50x1024 inb_S1x16x50x1024_S1x1x50x1024_0_12_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 11 (by decide) slices_S896x1024_o616_0_S50x1024 inb_S1x16x50x1024_S1x1x50x1024_0_11_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 10 (by decide) slices_S896x1024_o560_0_S50x1024 inb_S1x16x50x1024_S1x1x50x1024_0_10_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 9 (by decide) slices_S896x1024_o504_0_S50x1024 inb_S1x16x50x1024_S1x1x50x1024_0_9_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 8 (by decide) slices_S896x1024_o448_0_S50x1024 inb_S1x16x50x1024_S1x1x50x1024_0_8_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 7 (by decide) slices_S896x1024_o392_0_S50x1024 inb_S1x16x50x1024_S1x1x50x1024_0_7_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 6 (by decide) slices_S896x1024_o336_0_S50x1024 inb_S1x16x50x1024_S1x1x50x1024_0_6_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 5 (by decide) slices_S896x1024_o280_0_S50x1024 inb_S1x16x50x1024_S1x1x50x1024_0_5_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 4 (by decide) slices_S896x1024_o224_0_S50x1024 inb_S1x16x50x1024_S1x1x50x1024_0_4_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 3 (by decide) slices_S896x1024_o168_0_S50x1024 inb_S1x16x50x1024_S1x1x50x1024_0_3_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 2 (by decide) slices_S896x1024_o112_0_S50x1024 inb_S1x16x50x1024_S1x1x50x1024_0_2_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 1 (by decide) slices_S896x1024_o56_0_S50x1024 inb_S1x16x50x1024_S1x1x50x1024_0_1_0_0 x
  · exact fun x => out_piece c arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 xs 0 (by decide) slices_S896x1024_o0_0_S50x1024 inb_S1x16x50x1024_S1x1x50x1024_0_0_0_0 x

end Cert.KernelIdeal.Body

end
-- ==== Proof.KernelIdealFrame.lean ====
/-
  The idealized kernel's run over the extended reals with the result named: after grid point t the output window's buffer
  holds the block function of that point's input blocks, independent of the scratch, so the pipeline's data names it in
  closed form and the scratch carries nothing between points.
-/
import proofs.«164674_j32908039422062_2_alg».proof.Proof.Gen.KernelIdeal.Frame
import proofs.«164674_j32908039422062_2_alg».proof.Proof.KernelIdealRun
import proofs.«164674_j32908039422062_2_alg».proof.Proof.KernelIdealBlock
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Window w's current staging buffer at grid point t, as the pipeline passes it to the body, and that it is a whole buffer. -/
abbrev stg0 (t : Fin cfg0.N) : Memref sig .tc .vmem S1x16x512 .f32 := win0_0.stage (cfg0.slots t 0)
abbrev whl0 (t : Fin cfg0.N) : (stg0 t).IsWhole := hstage0_0 ((cfg0.slots t 0).cast nbuf0_0)
abbrev stg1 (t : Fin cfg0.N) : Memref sig .tc .vmem S1x16x512 .f32 := win0_1.stage (cfg0.slots t 1)
abbrev whl1 (t : Fin cfg0.N) : (stg1 t).IsWhole := hstage0_1 ((cfg0.slots t 1).cast nbuf0_1)
abbrev stg2 (t : Fin cfg0.N) : Memref sig .tc .vmem S1x50x512 .f32 := win0_2.stage (cfg0.slots t 2)
abbrev whl2 (t : Fin cfg0.N) : (stg2 t).IsWhole := hstage0_2 ((cfg0.slots t 2).cast nbuf0_2)
abbrev stg3 (t : Fin cfg0.N) : Memref sig .tc .vmem S512x640 .bf16 := win0_3.stage (cfg0.slots t 3)
abbrev whl3 (t : Fin cfg0.N) : (stg3 t).IsWhole := hstage0_3 ((cfg0.slots t 3).cast nbuf0_3)
abbrev stg4 (t : Fin cfg0.N) : Memref sig .tc .vmem S640 .f32 := win0_4.stage (cfg0.slots t 4)
abbrev whl4 (t : Fin cfg0.N) : (stg4 t).IsWhole := hstage0_4 ((cfg0.slots t 4).cast nbuf0_4)
abbrev stg5 (t : Fin cfg0.N) : Memref sig .tc .vmem S512x640 .bf16 := win0_5.stage (cfg0.slots t 5)
abbrev whl5 (t : Fin cfg0.N) : (stg5 t).IsWhole := hstage0_5 ((cfg0.slots t 5).cast nbuf0_5)
abbrev stg6 (t : Fin cfg0.N) : Memref sig .tc .vmem S640 .f32 := win0_6.stage (cfg0.slots t 6)
abbrev whl6 (t : Fin cfg0.N) : (stg6 t).IsWhole := hstage0_6 ((cfg0.slots t 6).cast nbuf0_6)
abbrev stg7 (t : Fin cfg0.N) : Memref sig .tc .vmem S512x640 .bf16 := win0_7.stage (cfg0.slots t 7)
abbrev whl7 (t : Fin cfg0.N) : (stg7 t).IsWhole := hstage0_7 ((cfg0.slots t 7).cast nbuf0_7)
abbrev stg8 (t : Fin cfg0.N) : Memref sig .tc .vmem S640 .f32 := win0_8.stage (cfg0.slots t 8)
abbrev whl8 (t : Fin cfg0.N) : (stg8 t).IsWhole := hstage0_8 ((cfg0.slots t 8).cast nbuf0_8)
abbrev stg9 (t : Fin cfg0.N) : Memref sig .tc .vmem S640x1024 .bf16 := win0_9.stage (cfg0.slots t 9)
abbrev whl9 (t : Fin cfg0.N) : (stg9 t).IsWhole := hstage0_9 ((cfg0.slots t 9).cast nbuf0_9)
abbrev stg10 (t : Fin cfg0.N) : Memref sig .tc .vmem S1024 .f32 := win0_10.stage (cfg0.slots t 10)
abbrev whl10 (t : Fin cfg0.N) : (stg10 t).IsWhole := hstage0_10 ((cfg0.slots t 10).cast nbuf0_10)
abbrev stg11 (t : Fin cfg0.N) : Memref sig .tc .vmem S1x16x50x1024 .f32 := win0_11.stage (cfg0.slots t 11)
abbrev whl11 (t : Fin cfg0.N) : (stg11 t).IsWhole := hstage0_11 ((cfg0.slots t 11).cast nbuf0_11)
/-- The staging scratch the body keeps beside the windows: a whole buffer of the kernel's own. -/
abbrev scr : Memref sig .tc .vmem S896x640 .f32 := Memref.whole cc0_scratch0

/-- The region's invariant is the scratch at some contents and the generator register at some state. -/
theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The pipeline's data on core c, over the extended reals: every input window's buffer holds its block of the array the
    region found, at every point; after point t the output window's buffer holds the block function of that point's input
    blocks; the invariant never changes (the scratch carries nothing a later point depends on). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blockSpec (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = blockSpec (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is handed at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t))

set_option maxHeartbeats 1600000 in
/-- The body at any point: the inputs' buffers hold their blocks, so the body's run applies; the scratch goes in at some
    contents and comes back at some contents; the output's buffer comes back with the sixteen stores written, which read
    as the block function whatever the scratch held. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, inv_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun (F := Ideal) c (grid0.coords t) (stg0 t) (whl0 t) (stg1 t) (whl1 t) (stg2 t) (whl2 t) (stg3 t) (whl3 t) (stg4 t) (whl4 t) (stg5 t) (whl5 t) (stg6 t) (whl6 t) (stg7 t) (whl7 t) (stg8 t) (whl8 t) (stg9 t) (whl9 t) (stg10 t) (whl10 t) (stg11 t) (whl11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ds).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS]; · iexact HS
  iintro ⟨H0, H1, H2, H3, H4, H5, H6, H7, H8, H9, H10, ⟨%e11, H11⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr; swap; · iexact H11
  ipureintro
  exact block_value c (grid0.coords t) (stg0 t) (whl0 t) (stg1 t) (whl1 t) (stg2 t) (whl2 t) (stg3 t) (whl3 t) (stg4 t) (whl4 t) (stg5 t) (whl5 t) (stg6 t) (whl6 t) (stg7 t) (whl7 t) (stg8 t) (whl8 t) (stg9 t) (whl9 t) (stg10 t) (whl10 t) (stg11 t) (whl11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ds e11

theorem body_obligation (c : Dev nD) : BodyObligation (dats m 0 c) (defs₀ (F := Ideal)) Variants.none () Set.univ := fun t => by
  rw [bigSep_W0, bigSep_W0]
  exact sound_body m c t

set_option backward.isDefEq.respectTransparency.types false in
/-- Every weakly fair execution of @main terminates; at the end every array of the pipeline holds what the write-backs of
    the blocks above leave, and every other buffer what the host line after the region leaves. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The idealized kernel's frame. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Body

end
-- ==== Proof.Spec.lean ====
/-
  The joint network over the extended reals, one output row entry at a time.

  For a batch row b, an encoder time step t, a decoder position u and a vocabulary entry v the network computes
    logits(b, t, u, v) = Σ_f tanh(fused(b, t, f) + proj(b, u, f)) · W_out(f, v) + b_out(v),
    fused(b, t, f) = ((Σ_e enc(b, t, e) · W_enc(e, f)) + b_enc(f) + Σ_d ot(b, t, d) · W_ot(d, f)) + b_ot(f),
    proj(b, u, f)  = (Σ_d dec(b, u, d) · W_dec(d, f)) + b_dec(f).
  The entry depends on the encoder and auxiliary rows (b, t) and on the decoder row (b, u) only, so it is stated over those
  three rows: two programs that feed it the same rows agree on it, whatever else their arrays hold (a zero-padded
  time axis, say).
-/
import Idealize.ShloMosaic.PureOps.Ideal

noncomputable section

namespace Joint

open Idealize.ShloMosaic

/-- One entry of the logits from the three rows it reads and the weights. -/
def entry (encRow otRow decRow : Fin 512 → EReal) (Wenc Wot Wdec : Fin 512 → Fin 640 → EReal)
    (benc bot bdec : Fin 640 → EReal) (Wout : Fin 640 → Fin 1024 → EReal) (bout : Fin 1024 → EReal) (v : Fin 1024) : EReal :=
  (∑ f : Fin 640, Ideal.tanh ((((∑ e : Fin 512, encRow e * Wenc e f) + benc f + ∑ d : Fin 512, otRow d * Wot d f) + bot f)
      + ((∑ d : Fin 512, decRow d * Wdec d f) + bdec f)) * Wout f v) + bout v

end Joint

end
-- ==== Proof.KernelIdealValue.lean ====
/-
  From blocks to the array: grid point (b, q) reads time steps 16·q … 16·q + 15 of batch row b of the two padded inputs,
  batch row b of the decoder input and every weight whole, and writes back block (b, q) of the padded result array; the
  blocks tile that array, so after the run it holds the joint network's entries of the padded inputs' rows.
-/
import proofs.«164674_j32908039422062_2_alg».proof.Proof.KernelIdealFrame
import proofs.«164674_j32908039422062_2_alg».proof.Proof.Spec
import Idealize.ShloMosaic.Lib.Pipeline.Value
import Idealize.ShloMosaic.Lib.ValueIdx

set_option maxRecDepth 16384

noncomputable section

namespace Cert.KernelIdeal.Body

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits -/

/-- The printed index maps over the grid of 8 × 13 points: the two time-tiled inputs move with the output (batch row,
    time tile), the decoder input with the batch row, and every weight and bias window stays at its one block. -/
theorem idx_facts : ∀ t : Fin cfg0.N,
    win0_0.index t (0 : Fin 3) = win0_11.index t (0 : Fin 4) ∧ win0_0.index t (1 : Fin 3) = win0_11.index t (1 : Fin 4) ∧ win0_0.index t (2 : Fin 3) = 0
    ∧ win0_1.index t (0 : Fin 3) = win0_11.index t (0 : Fin 4) ∧ win0_1.index t (1 : Fin 3) = win0_11.index t (1 : Fin 4) ∧ win0_1.index t (2 : Fin 3) = 0
    ∧ win0_2.index t (0 : Fin 3) = win0_11.index t (0 : Fin 4) ∧ win0_2.index t (1 : Fin 3) = 0 ∧ win0_2.index t (2 : Fin 3) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = 0 ∧ win0_9.index t (1 : Fin 2) = 0 ∧ win0_10.index t (0 : Fin 1) = 0
    ∧ win0_11.index t (0 : Fin 4) ≤ 7 ∧ win0_11.index t (1 : Fin 4) ≤ 12 ∧ win0_11.index t (2 : Fin 4) = 0 ∧ win0_11.index t (3 : Fin 4) = 0 :=
  (by decide +kernel : ∀ t : Fin grid0.N, _)

/-- Every (batch row, time tile) is some grid point's. -/
theorem idx_onto : ∀ (q0 : Fin 8) (q1 : Fin 13), ∃ t : Fin cfg0.N, win0_11.index t = ![q0.val, q1.val, 0, 0] :=
  (by decide +kernel : ∀ (q0 : Fin 8) (q1 : Fin 13), ∃ t : Fin grid0.N, win0_11.index t = ![q0.val, q1.val, 0, 0])

/-- A time-tiled input's block at a point: sixteen consecutive time steps of one batch row. -/
theorem blk0_read (c : Dev nD) (t : Fin cfg0.N) (y : S1x16x512.Idx) (q : S8x208x512.Idx)
    (h0 : (q 0).val = win0_11.index t (0 : Fin 4) + (y 0).val) (h1 : (q 1).val = win0_11.index t (1 : Fin 4) * 16 + (y 1).val)
    (h2 : (q 2).val = (y 2).val) : iblk m c 0 t y = V m c main_v4 q := by
  obtain ⟨e0, e1, e2, -⟩ := idx_facts t
  unfold iblk
  rw [View.read_apply]
  show V m c main_v4 _ = V m c main_v4 q
  refine congrArg (V m c main_v4) (funext fun a => Fin.ext ?_)
  match a with
  | ⟨0, _⟩ => show win0_0.index t (0 : Fin 3) * 1 + 1 * (y 0).val = (q 0).val; omega
  | ⟨1, _⟩ => show win0_0.index t (1 : Fin 3) * 16 + 1 * (y 1).val = (q 1).val; omega
  | ⟨2, _⟩ => show win0_0.index t (2 : Fin 3) * 512 + 1 * (y 2).val = (q 2).val; omega

theorem blk1_read (c : Dev nD) (t : Fin cfg0.N) (y : S1x16x512.Idx) (q : S8x208x512.Idx)
    (h0 : (q 0).val = win0_11.index t (0 : Fin 4) + (y 0).val) (h1 : (q 1).val = win0_11.index t (1 : Fin 4) * 16 + (y 1).val)
    (h2 : (q 2).val = (y 2).val) : iblk m c 1 t y = V m c main_v5 q := by
  obtain ⟨-, -, -, e0, e1, e2, -⟩ := idx_facts t
  unfold iblk
  rw [View.read_apply]
  show V m c main_v5 _ = V m c main_v5 q
  refine congrArg (V m c main_v5) (funext fun a => Fin.ext ?_)
  match a with
  | ⟨0, _⟩ => show win0_1.index t (0 : Fin 3) * 1 + 1 * (y 0).val = (q 0).val; omega
  | ⟨1, _⟩ => show win0_1.index t (1 : Fin 3) * 16 + 1 * (y 1).val = (q 1).val; omega
  | ⟨2, _⟩ => show win0_1.index t (2 : Fin 3) * 512 + 1 * (y 2).val = (q 2).val; omega

/-- The decoder input's block at a point: one batch row whole. -/
theorem blk2_read (c : Dev nD) (t : Fin cfg0.N) (y : S1x50x512.Idx) (q : S8x50x512.Idx)
    (h0 : (q 0).val = win0_11.index t (0 : Fin 4) + (y 0).val) (h1 : (q 1).val = (y 1).val)
    (h2 : (q 2).val = (y 2).val) : iblk m c 2 t y = V m c main_arg1 q := by
  obtain ⟨-, -, -, -, -, -, e0, e1, e2, -⟩ := idx_facts t
  unfold iblk
  rw [View.read_apply]
  show V m c main_arg1 _ = V m c main_arg1 q
  refine congrArg (V m c main_arg1) (funext fun a => Fin.ext ?_)
  match a with
  | ⟨0, _⟩ => show win0_2.index t (0 : Fin 3) * 1 + 1 * (y 0).val = (q 0).val; omega
  | ⟨1, _⟩ => show win0_2.index t (1 : Fin 3) * 50 + 1 * (y 1).val = (q 1).val; omega
  | ⟨2, _⟩ => show win0_2.index t (2 : Fin 3) * 512 + 1 * (y 2).val = (q 2).val; omega

/-- A weight window's one block is the whole array. -/
theorem blk3_read (c : Dev nD) (t : Fin cfg0.N) (y : S512x640.Idx) : iblk m c 3 t y = V m c main_v0 y := by
  obtain ⟨-, -, -, -, -, -, -, -, -, e0, e1, -⟩ := idx_facts t
  unfold iblk
  rw [View.read_apply]
  show V m c main_v0 _ = V m c main_v0 y
  refine congrArg (V m c main_v0) (funext fun a => Fin.ext ?_)
  match a with
  | ⟨0, _⟩ => show win0_3.index t (0 : Fin 2) * 512 + 1 * (y 0).val = (y 0).val; omega
  | ⟨1, _⟩ => show win0_3.index t (1 : Fin 2) * 640 + 1 * (y 1).val = (y 1).val; omega

/-- A weight window's one block is the whole array. -/
theorem blk5_read (c : Dev nD) (t : Fin cfg0.N) (y : S512x640.Idx) : iblk m c 5 t y = V m c main_v1 y := by
  obtain ⟨-, -, -, -, -, -, -, -, -, -, -, -, e0, e1, -⟩ := idx_facts t
  unfold iblk
  rw [View.read_apply]
  show V m c main_v1 _ = V m c main_v1 y
  refine congrArg (V m c main_v1) (funext fun a => Fin.ext ?_)
  match a with
  | ⟨0, _⟩ => show win0_5.index t (0 : Fin 2) * 512 + 1 * (y 0).val = (y 0).val; omega
  | ⟨1, _⟩ => show win0_5.index t (1 : Fin 2) * 640 + 1 * (y 1).val = (y 1).val; omega

/-- A weight window's one block is the whole array. -/
theorem blk7_read (c : Dev nD) (t : Fin cfg0.N) (y : S512x640.Idx) : iblk m c 7 t y = V m c main_v2 y := by
  obtain ⟨-, -, -, -, -, -, -, -, -, -, -, -, -, -, -, e0, e1, -⟩ := idx_facts t
  unfold iblk
  rw [View.read_apply]
  show V m c main_v2 _ = V m c main_v2 y
  refine congrArg (V m c main_v2) (funext fun a => Fin.ext ?_)
  match a with
  | ⟨0, _⟩ => show win0_7.index t (0 : Fin 2) * 512 + 1 * (y 0).val = (y 0).val; omega
  | ⟨1, _⟩ => show win0_7.index t (1 : Fin 2) * 640 + 1 * (y 1).val = (y 1).val; omega

/-- A weight window's one block is the whole array. -/
theorem blk9_read (c : Dev nD) (t : Fin cfg0.N) (y : S640x1024.Idx) : iblk m c 9 t y = V m c main_v3 y := by
  obtain ⟨-, -, -, -, -, -, -, -, -, -, -, -, -, -, -, -, -, -, e0, e1, -⟩ := idx_facts t
  unfold iblk
  rw [View.read_apply]
  show V m c main_v3 _ = V m c main_v3 y
  refine congrArg (V m c main_v3) (funext fun a => Fin.ext ?_)
  match a with
  | ⟨0, _⟩ => show win0_9.index t (0 : Fin 2) * 640 + 1 * (y 0).val = (y 0).val; omega
  | ⟨1, _⟩ => show win0_9.index t (1 : Fin 2) * 1024 + 1 * (y 1).val = (y 1).val; omega

/-- A bias window's one block is the whole array. -/
theorem blk4_read (c : Dev nD) (t : Fin cfg0.N) (y : S640.Idx) : iblk m c 4 t y = V m c main_arg4 y := by
  obtain ⟨-, -, -, -, -, -, -, -, -, -, -, e0, -⟩ := idx_facts t
  unfold iblk
  rw [View.read_apply]
  show V m c main_arg4 _ = V m c main_arg4 y
  refine congrArg (V m c main_arg4) (funext fun a => Fin.ext ?_)
  match a with
  | ⟨0, _⟩ => show win0_4.index t (0 : Fin 1) * 640 + 1 * (y 0).val = (y 0).val; omega

/-- A bias window's one block is the whole array. -/
theorem blk6_read (c : Dev nD) (t : Fin cfg0.N) (y : S640.Idx) : iblk m c 6 t y = V m c main_arg6 y := by
  obtain ⟨-, -, -, -, -, -, -, -, -, -, -, -, -, -, e0, -⟩ := idx_facts t
  unfold iblk
  rw [View.read_apply]
  show V m c main_arg6 _ = V m c main_arg6 y
  refine congrArg (V m c main_arg6) (funext fun a => Fin.ext ?_)
  match a with
  | ⟨0, _⟩ => show win0_6.index t (0 : Fin 1) * 640 + 1 * (y 0).val = (y 0).val; omega

/-- A bias window's one block is the whole array. -/
theorem blk8_read (c : Dev nD) (t : Fin cfg0.N) (y : S640.Idx) : iblk m c 8 t y = V m c main_arg8 y := by
  obtain ⟨-, -, -, -, -, -, -, -, -, -, -, -, -, -, -, -, -, e0, -⟩ := idx_facts t
  unfold iblk
  rw [View.read_apply]
  show V m c main_arg8 _ = V m c main_arg8 y
  refine congrArg (V m c main_arg8) (funext fun a => Fin.ext ?_)
  match a with
  | ⟨0, _⟩ => show win0_8.index t (0 : Fin 1) * 640 + 1 * (y 0).val = (y 0).val; omega

/-- A bias window's one block is the whole array. -/
theorem blk10_read (c : Dev nD) (t : Fin cfg0.N) (y : S1024.Idx) : iblk m c 10 t y = V m c main_arg10 y := by
  obtain ⟨-, -, -, -, -, -, -, -, -, -, -, -, -, -, -, -, -, -, -, -, e0, -⟩ := idx_facts t
  unfold iblk
  rw [View.read_apply]
  show V m c main_arg10 _ = V m c main_arg10 y
  refine congrArg (V m c main_arg10) (funext fun a => Fin.ext ?_)
  match a with
  | ⟨0, _⟩ => show win0_10.index t (0 : Fin 1) * 1024 + 1 * (y 0).val = (y 0).val; omega

/-! ## The result array of the region -/

/-- The array the region writes (its time axis padded to 208), entry by entry: the joint network's entry of the rows the
    region finds in the padded encoder and auxiliary arrays, the decoder array and the converted weights. -/
def padded (c : Dev nD) : S8x208x50x1024.Idx → EReal := fun i =>
  Joint.entry (fun e => V m c main_v4 (ix3 (i 0 : Fin 8) (i 1 : Fin 208) e)) (fun d => V m c main_v5 (ix3 (i 0 : Fin 8) (i 1 : Fin 208) d))
    (fun d => V m c main_arg1 (ix3 (i 0 : Fin 8) (i 2 : Fin 50) d))
    (fun e f => V m c main_v0 (ix2 e f)) (fun e f => V m c main_v1 (ix2 e f)) (fun e f => V m c main_v2 (ix2 e f))
    (fun f => V m c main_arg4 (ix1 f)) (fun f => V m c main_arg6 (ix1 f)) (fun f => V m c main_arg8 (ix1 f))
    (fun f w => V m c main_v3 (ix2 f w)) (fun w => V m c main_arg10 (ix1 w)) (i 3 : Fin 1024)

/-- What grid point t writes back is block t of that array. -/
theorem flushed_eq (c : Dev nD) (t : Fin cfg0.N) :
    (dats m 0 c).flushed 11 t = ((cfg0.win 11).blk t).view.read (Elt Ideal) (padded m c) := by
  show (cfg0.win 11).cut (grid0.coords t) ((dats m 0 c).after 11 t) = _
  rw [after_11]
  obtain ⟨-, -, -, -, -, -, -, -, -, -, -, -, -, -, -, -, -, -, -, -, -, b7, b12, z2, z3⟩ := idx_facts t
  funext j
  rw [View.read_apply]
  obtain ⟨a, jj, u, v, rfl⟩ : ∃ (a : Fin 1) (jj : Fin 16) (u : Fin 50) (v : Fin 1024), j = ix4 a jj u v := ⟨j 0, j 1, j 2, j 3, eq_ix4 j⟩
  have hB : win0_11.index t (0 : Fin 4) < 8 := by omega
  have hT : win0_11.index t (1 : Fin 4) * 16 + jj.val < 208 := by have := jj.isLt; omega
  have hi : ((cfg0.win 11).blk t).view.emb (ix4 a jj u v)
      = ix4 (⟨win0_11.index t (0 : Fin 4), hB⟩ : Fin 8) (⟨win0_11.index t (1 : Fin 4) * 16 + jj.val, hT⟩ : Fin 208) u v := by
    funext k; apply Fin.ext
    match k with
    | ⟨0, _⟩ => show win0_11.index t (0 : Fin 4) * 1 + 1 * a.val = win0_11.index t (0 : Fin 4); have := a.isLt; omega
    | ⟨1, _⟩ => show win0_11.index t (1 : Fin 4) * 16 + 1 * jj.val = win0_11.index t (1 : Fin 4) * 16 + jj.val; omega
    | ⟨2, _⟩ => show win0_11.index t (2 : Fin 4) * 50 + 1 * u.val = u.val; omega
    | ⟨3, _⟩ => show win0_11.index t (3 : Fin 4) * 1024 + 1 * v.val = v.val; omega
  rw [hi]
  show blockSpec (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 a jj u v) = padded m c (ix4 (⟨win0_11.index t (0 : Fin 4), hB⟩ : Fin 8) (⟨win0_11.index t (1 : Fin 4) * 16 + jj.val, hT⟩ : Fin 208) u v)
  unfold blockSpec padded Joint.entry
  simp only [fused_apply, proj_apply]
  refine congrArg₂ (· + ·) (Finset.sum_congr rfl fun f _ => congrArg₂ (· * ·) (congrArg Ideal.tanh (congrArg₂ (· + ·)
    (congrArg₂ (· + ·) (congrArg₂ (· + ·) (congrArg₂ (· + ·) (Finset.sum_congr rfl fun e _ => congrArg₂ (· * ·) ?e0 ?e3) ?e4)
      (Finset.sum_congr rfl fun d _ => congrArg₂ (· * ·) ?e1 ?e5)) ?e6)
    (congrArg₂ (· + ·) (Finset.sum_congr rfl fun d _ => congrArg₂ (· * ·) ?e2 ?e7) ?e8))) ?e9) ?e10
  case e0 => exact blk0_read m c t _ _ (Nat.add_zero _).symm rfl rfl
  case e1 => exact blk1_read m c t _ _ (Nat.add_zero _).symm rfl rfl
  case e2 => exact blk2_read m c t _ _ (Nat.add_zero _).symm rfl rfl
  case e3 => exact blk3_read m c t _
  case e4 => exact blk4_read m c t _
  case e5 => exact blk5_read m c t _
  case e6 => exact blk6_read m c t _
  case e7 => exact blk7_read m c t _
  case e8 => exact blk8_read m c t _
  case e9 => exact blk9_read m c t _
  case e10 => exact blk10_read m c t _

/-- An index of the array is in point t's block iff each coordinate is in the block's range on its axis. -/
theorem mem_blk (t : Fin cfg0.N) (i : S8x208x50x1024.Idx) :
    i ∈ ((cfg0.win 11).blk t).view.set ↔ ∀ a : Fin 4, win0_11.index t a * S1x16x50x1024.size a ≤ (i a).val
      ∧ (i a).val < win0_11.index t a * S1x16x50x1024.size a + S1x16x50x1024.size a := by
  show i ∈ ((View.whole main_v6).slice (win0_11.rect t)).set ↔ _
  rw [View.set_slice_whole, Rect.mem_set_unit]
  exact Iff.rfl

/-- Every entry of the array lies in the block of the point at its batch row and time tile. -/
theorem covered (i : S8x208x50x1024.Idx) :
    ∃ t : Fin cfg0.N, (cfg0.win 11).flush t = true ∧ i ∈ ((cfg0.win 11).blk t).view.set := by
  have h0 : (i 0).val < 8 := (i 0).isLt
  have h1 : (i 1).val < 208 := (i 1).isLt
  have h2 : (i 2).val < 50 := (i 2).isLt
  have h3 : (i 3).val < 1024 := (i 3).isLt
  obtain ⟨t, ht⟩ := idx_onto ⟨(i 0).val, h0⟩ ⟨(i 1).val / 16, by omega⟩
  have q0 : win0_11.index t (0 : Fin 4) = (i 0).val := congrFun ht 0
  have q1 : win0_11.index t (1 : Fin 4) = (i 1).val / 16 := congrFun ht 1
  have q2 : win0_11.index t (2 : Fin 4) = 0 := congrFun ht 2
  have q3 : win0_11.index t (3 : Fin 4) = 0 := congrFun ht 3
  refine ⟨t, flush0_11 t, ?_⟩
  rw [mem_blk]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 16 ≤ (i 1).val ∧ (i 1).val < win0_11.index t (1 : Fin 4) * 16 + 16; omega
  | ⟨2, _⟩ => show win0_11.index t (2 : Fin 4) * 50 ≤ (i 2).val ∧ (i 2).val < win0_11.index t (2 : Fin 4) * 50 + 50; omega
  | ⟨3, _⟩ => show win0_11.index t (3 : Fin 4) * 1024 ≤ (i 3).val ∧ (i 3).val < win0_11.index t (3 : Fin 4) * 1024 + 1024; omega

/-- The array the region writes, after the run. -/
theorem final (c : Dev nD) : (dats m 0 c).arrAt 11 cfg0.N = padded m c :=
  (dats m 0 c).arrAt_eq_of_cover 11 (padded m c) (fun t _ => flushed_eq m c t) covered

end Cert.KernelIdeal.Body

end
-- ==== Proof.KernelIdealResult.lean ====
/-
  The program's result: the host lines before the region pad the time axis of two inputs with zeros and convert the
  weights' format (the identity over the extended reals); the line after it cuts the first 200 time steps out of the
  region's array. On those time steps the padded rows are the arguments' rows, so the result is the joint network's
  entries of the arguments.
-/
import proofs.«164674_j32908039422062_2_alg».proof.Proof.KernelIdealValue
import Idealize.ShloMosaic.Lib.KernelVsHost
import Idealize.ShloMosaic.Lib.StableHlo.Run

set_option maxRecDepth 16384

noncomputable section

namespace Cert.KernelIdeal.Body

open Cert.KernelIdeal Cert.KernelIdeal.Gen Cert.KernelIdeal.Pay
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the host lines before the region leave -/

/-- The encoder array with its time axis zero-padded from 200 to 208. -/
theorem V_v4 (c : Dev nD) : (V m c main_v4 : S8x208x512.Idx → EReal)
    = pad S8x208x512 ![0, 0, 0] ![0, 8, 0] ![0, 0, 0] (m ((c : Thread nD τ).loc main_arg0)) (sitofp (F := Ideal) .f32 (constantI S_ 32 0#32)) pads_S8x200x512_S8x208x512_000_080_000 h_S_ := by
  dsimp only [V, V0]
  simp only [hostOps0, hostOps0_1, hostOps0_2, hostOps0_3, List.flatten_cons, List.flatten_nil, List.append_nil, List.cons_append, List.nil_append]
  after_results
  rfl

/-- The auxiliary decoder-feature array, padded the same way. -/
theorem V_v5 (c : Dev nD) : (V m c main_v5 : S8x208x512.Idx → EReal)
    = pad S8x208x512 ![0, 0, 0] ![0, 8, 0] ![0, 0, 0] (m ((c : Thread nD τ).loc main_arg2)) (sitofp (F := Ideal) .f32 (constantI S_ 32 0#32)) pads_S8x200x512_S8x208x512_000_080_000 h_S_ := by
  dsimp only [V, V0]
  simp only [hostOps0, hostOps0_1, hostOps0_2, hostOps0_3, List.flatten_cons, List.flatten_nil, List.append_nil, List.cons_append, List.nil_append]
  after_results
  rfl

/-- A weight array converted to the narrower float format: over the extended reals, the array itself. -/
theorem V_v0 (c : Dev nD) (y : S512x640.Idx) : (V m c main_v0 : S512x640.Idx → EReal) y = (m ((c : Thread nD τ).loc main_arg3)) y := by
  have e : (V m c main_v0 : S512x640.Idx → EReal) = (truncf (F := Ideal) .bf16 (m ((c : Thread nD τ).loc main_arg3)) bitsLt_bf16_f32 : S512x640.Idx → EReal) := by
    dsimp only [V, V0]
    simp only [hostOps0, hostOps0_1, hostOps0_2, hostOps0_3, List.flatten_cons, List.flatten_nil, List.append_nil, List.cons_append, List.nil_append]
    after_results
    all_goals rfl
  rw [e]
  rfl

/-- A weight array converted to the narrower float format: over the extended reals, the array itself. -/
theorem V_v1 (c : Dev nD) (y : S512x640.Idx) : (V m c main_v1 : S512x640.Idx → EReal) y = (m ((c : Thread nD τ).loc main_arg5)) y := by
  have e : (V m c main_v1 : S512x640.Idx → EReal) = (truncf (F := Ideal) .bf16 (m ((c : Thread nD τ).loc main_arg5)) bitsLt_bf16_f32 : S512x640.Idx → EReal) := by
    dsimp only [V, V0]
    simp only [hostOps0, hostOps0_1, hostOps0_2, hostOps0_3, List.flatten_cons, List.flatten_nil, List.append_nil, List.cons_append, List.nil_append]
    after_results
    all_goals rfl
  rw [e]
  rfl

/-- A weight array converted to the narrower float format: over the extended reals, the array itself. -/
theorem V_v2 (c : Dev nD) (y : S512x640.Idx) : (V m c main_v2 : S512x640.Idx → EReal) y = (m ((c : Thread nD τ).loc main_arg7)) y := by
  have e : (V m c main_v2 : S512x640.Idx → EReal) = (truncf (F := Ideal) .bf16 (m ((c : Thread nD τ).loc main_arg7)) bitsLt_bf16_f32 : S512x640.Idx → EReal) := by
    dsimp only [V, V0]
    simp only [hostOps0, hostOps0_1, hostOps0_2, hostOps0_3, List.flatten_cons, List.flatten_nil, List.append_nil, List.cons_append, List.nil_append]
    after_results
    all_goals rfl
  rw [e]
  rfl

/-- A weight array converted to the narrower float format: over the extended reals, the array itself. -/
theorem V_v3 (c : Dev nD) (y : S640x1024.Idx) : (V m c main_v3 : S640x1024.Idx → EReal) y = (m ((c : Thread nD τ).loc main_arg9)) y := by
  have e : (V m c main_v3 : S640x1024.Idx → EReal) = (truncf (F := Ideal) .bf16 (m ((c : Thread nD τ).loc main_arg9)) bitsLt_bf16_f32 : S640x1024.Idx → EReal) := by
    dsimp only [V, V0]
    simp only [hostOps0, hostOps0_1, hostOps0_2, hostOps0_3, List.flatten_cons, List.flatten_nil, List.append_nil, List.cons_append, List.nil_append]
    after_results
    all_goals rfl
  rw [e]
  rfl

/-- Inside the first 200 time steps the padded encoder array is the encoder array. -/
theorem V_v4_apply (c : Dev nD) (b : Fin 8) (t : Fin 200) (e : Fin 512) (t' : Fin 208) (ht : t'.val = t.val) :
    (V m c main_v4 : S8x208x512.Idx → EReal) (ix3 b t' e) = (m ((c : Thread nD τ).loc main_arg0)) (ix3 b t e) := by
  rw [V_v4]
  exact pad_apply_of_inside _ _ _ _ _ _ _ (ix3 b t' e) (ix3 b t e) (fun a => by
    match a with
    | ⟨0, _⟩ => show b.val = 0 + b.val * (0 + 1); omega
    | ⟨1, _⟩ => show t'.val = 0 + t.val * (0 + 1); omega
    | ⟨2, _⟩ => show e.val = 0 + e.val * (0 + 1); omega)

theorem V_v5_apply (c : Dev nD) (b : Fin 8) (t : Fin 200) (e : Fin 512) (t' : Fin 208) (ht : t'.val = t.val) :
    (V m c main_v5 : S8x208x512.Idx → EReal) (ix3 b t' e) = (m ((c : Thread nD τ).loc main_arg2)) (ix3 b t e) := by
  rw [V_v5]
  exact pad_apply_of_inside _ _ _ _ _ _ _ (ix3 b t' e) (ix3 b t e) (fun a => by
    match a with
    | ⟨0, _⟩ => show b.val = 0 + b.val * (0 + 1); omega
    | ⟨1, _⟩ => show t'.val = 0 + t.val * (0 + 1); omega
    | ⟨2, _⟩ => show e.val = 0 + e.val * (0 + 1); omega)

/-! ## The program's result -/

/-- The result of the program, entry by entry: the joint network's entry of the rows of the argument arrays. -/
def result (c : Dev nD) : S8x200x50x1024.Idx → EReal := fun i =>
  Joint.entry (fun e => (m ((c : Thread nD τ).loc main_arg0)) (ix3 (i 0 : Fin 8) (i 1 : Fin 200) e)) (fun d => (m ((c : Thread nD τ).loc main_arg2)) (ix3 (i 0 : Fin 8) (i 1 : Fin 200) d))
    (fun d => (m ((c : Thread nD τ).loc main_arg1)) (ix3 (i 0 : Fin 8) (i 2 : Fin 50) d))
    (fun e f => (m ((c : Thread nD τ).loc main_arg3)) (ix2 e f)) (fun e f => (m ((c : Thread nD τ).loc main_arg5)) (ix2 e f)) (fun e f => (m ((c : Thread nD τ).loc main_arg7)) (ix2 e f))
    (fun f => (m ((c : Thread nD τ).loc main_arg4)) (ix1 f)) (fun f => (m ((c : Thread nD τ).loc main_arg6)) (ix1 f)) (fun f => (m ((c : Thread nD τ).loc main_arg8)) (ix1 f))
    (fun f w => (m ((c : Thread nD τ).loc main_arg9)) (ix2 f w)) (fun w => (m ((c : Thread nD τ).loc main_arg10)) (ix1 w)) (i 3 : Fin 1024)

/-- The first 200 time steps of the region's padded array are the result: there the padded rows are the arguments' rows. -/
theorem padded_apply (c : Dev nD) (i : S8x200x50x1024.Idx) (i' : S8x208x50x1024.Idx)
    (h0 : (i' 0).val = (i 0).val) (h1 : (i' 1).val = (i 1).val) (h2 : (i' 2).val = (i 2).val) (h3 : (i' 3).val = (i 3).val) :
    padded m c i' = result m c i := by
  have e0 : (i' 0 : Fin 8) = i 0 := Fin.ext h0
  have e2 : (i' 2 : Fin 50) = i 2 := Fin.ext h2
  have e3 : (i' 3 : Fin 1024) = i 3 := Fin.ext h3
  unfold padded result
  rw [e0, e2, e3]
  have r0 : (fun e => (V m c main_v4 : S8x208x512.Idx → EReal) (ix3 (i 0 : Fin 8) (i' 1 : Fin 208) e)) = fun e => (m ((c : Thread nD τ).loc main_arg0)) (ix3 (i 0 : Fin 8) (i 1 : Fin 200) e) :=
    funext fun e => V_v4_apply m c _ _ e _ h1
  have r1 : (fun d => (V m c main_v5 : S8x208x512.Idx → EReal) (ix3 (i 0 : Fin 8) (i' 1 : Fin 208) d)) = fun d => (m ((c : Thread nD τ).loc main_arg2)) (ix3 (i 0 : Fin 8) (i 1 : Fin 200) d) :=
    funext fun d => V_v5_apply m c _ _ d _ h1
  have w0 : (fun e f => (V m c main_v0 : S512x640.Idx → EReal) (ix2 e f)) = fun e f => (m ((c : Thread nD τ).loc main_arg3)) (ix2 e f) := funext fun e => funext fun f => V_v0 m c _
  have w1 : (fun e f => (V m c main_v1 : S512x640.Idx → EReal) (ix2 e f)) = fun e f => (m ((c : Thread nD τ).loc main_arg5)) (ix2 e f) := funext fun e => funext fun f => V_v1 m c _
  have w2 : (fun e f => (V m c main_v2 : S512x640.Idx → EReal) (ix2 e f)) = fun e f => (m ((c : Thread nD τ).loc main_arg7)) (ix2 e f) := funext fun e => funext fun f => V_v2 m c _
  have w3 : (fun f w => (V m c main_v3 : S640x1024.Idx → EReal) (ix2 f w)) = fun f w => (m ((c : Thread nD τ).loc main_arg9)) (ix2 f w) := funext fun f => funext fun w => V_v3 m c _
  have a1 : (V m c main_arg1) = (m ((c : Thread nD τ).loc main_arg1)) := V_main_arg1 m c
  have a4 : (V m c main_arg4) = (m ((c : Thread nD τ).loc main_arg4)) := V_main_arg4 m c
  have a6 : (V m c main_arg6) = (m ((c : Thread nD τ).loc main_arg6)) := V_main_arg6 m c
  have a8 : (V m c main_arg8) = (m ((c : Thread nD τ).loc main_arg8)) := V_main_arg8 m c
  have a10 : (V m c main_arg10) = (m ((c : Thread nD τ).loc main_arg10)) := V_main_arg10 m c
  exact (congrArg (fun g => Joint.entry g _ _ _ _ _ _ _ _ _ _ _) r0).trans <|
    (congrArg (fun g => Joint.entry _ g _ _ _ _ _ _ _ _ _ _) r1).trans <|
    (congrArg (fun g => Joint.entry _ _ _ g _ _ _ _ _ _ _ _) w0).trans <|
    (congrArg (fun g => Joint.entry _ _ _ _ g _ _ _ _ _ _ _) w1).trans <|
    (congrArg (fun g => Joint.entry _ _ _ _ _ g _ _ _ _ _ _) w2).trans <|
    (congrArg (fun g => Joint.entry _ _ _ _ _ _ _ _ _ g _ _) w3).trans <| by
      rw [a1, a4, a6, a8, a10]

/-- The host line after the region cuts the first 200 time steps out of the region's array: the result. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6) = padded m c :=
    (Pipeline.withArrays_arr spec0 launch0.win.arr_inj c _ _ 11).trans (final m c)
  refine (congrArg (fun X => extractStridedSlice S8x200x50x1024 ![0, 0, 0, 0] X slices_S8x208x50x1024_S8x200x50x1024_0_0_0_0) hw).trans ?_
  funext i
  obtain ⟨b, t, u, v, rfl⟩ : ∃ (b : Fin 8) (t : Fin 200) (u : Fin 50) (v : Fin 1024), i = ix4 b t u v := ⟨i 0, i 1, i 2, i 3, eq_ix4 i⟩
  have ht : t.val < 208 := by have := t.isLt; omega
  rw [extractStridedSlice_apply _ (padded m c) slices_S8x208x50x1024_S8x200x50x1024_0_0_0_0 (ix4 b t u v) (ix4 b (⟨t.val, ht⟩ : Fin 208) u v) (fun ax => by
    match ax with
    | ⟨0, _⟩ => exact (Nat.zero_add _).symm
    | ⟨1, _⟩ => exact (Nat.zero_add _).symm
    | ⟨2, _⟩ => exact (Nat.zero_add _).symm
    | ⟨3, _⟩ => exact (Nat.zero_add _).symm)]
  exact padded_apply m c _ _ rfl rfl rfl rfl

/-- Every weakly fair execution of the idealized kernel's @main terminates with the result array at the joint network's
    entries of the arguments and the arguments unchanged. -/
theorem run : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    ((h c).2 main_v7 (Pipeline.mem_restRefs_of main_v7 (by decide) (by decide))).trans (tail_eq m c),
    ((h c).2 main_arg0 (Pipeline.mem_restRefs_of main_arg0 (by decide) (by decide))).trans (W_main_arg0 m (dats m) c),
    ((h c).1 2).trans (((dats m 0 c).arrAt_in 2 rfl _).trans ((A_eq m c 2).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c))),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c))),
    ((h c).2 main_arg7 (Pipeline.mem_restRefs_of main_arg7 (by decide) (by decide))).trans (W_main_arg7 m (dats m) c),
    ((h c).1 8).trans (((dats m 0 c).arrAt_in 8 rfl _).trans ((A_eq m c 8).trans (V_main_arg8 m c))),
    ((h c).2 main_arg9 (Pipeline.mem_restRefs_of main_arg9 (by decide) (by decide))).trans (W_main_arg9 m (dats m) c),
    ((h c).1 10).trans (((dats m 0 c).arrAt_in 10 rfl _).trans ((A_eq m c 10).trans (V_main_arg10 m c)))⟩) (run_main m ρ)

end Cert.KernelIdeal.Body

end
-- ==== Proof.RefValue.lean ====
/-
  The reference read index by index over the extended reals: its three contractions are sums over the contracted index,
  its broadcasts re-index, and its result at (b, t, u, v) is the joint network's entry of the arguments' rows.
-/
import proofs.«164674_j32908039422062_2_alg».proof.Proof.Gen.ReferenceIdeal.Read
import proofs.«164674_j32908039422062_2_alg».proof.Proof.Spec
import Idealize.ShloMosaic.Lib.ValueIdx

set_option maxRecDepth 16384

noncomputable section

namespace Cert.ReferenceIdeal.RefValue

open Cert.ReferenceIdeal Cert.ReferenceIdeal.Read
open Idealize.ShloMosaic Idealize.ShloMosaic.ValueIdx

/-- The reference's fused encoder term at (b, t, f). -/
theorem fusedRow (x0 x2 : (⟨S8x200x512, .f32⟩ : BufTy).Contents (Elt Ideal)) (x3 x5 : (⟨S512x640, .f32⟩ : BufTy).Contents (Elt Ideal)) (x4 x6 : (⟨S640, .f32⟩ : BufTy).Contents (Elt Ideal))
    (b : Fin 8) (t : Fin 200) (f : Fin 640) :
    val_main_v8 (F := Ideal) x0 x2 x3 x4 x5 x6 (ix3 b t f)
      = ((∑ e : Fin 512, x0 (ix3 b t e) * x3 (ix2 e f)) + x4 (ix1 f) + ∑ d : Fin 512, x2 (ix3 b t d) * x5 (ix2 d f)) + x6 (ix1 f) := by
  have l0 : ∀ k, lidx_main_v0 (ix3 b t f) k = ix3 b t k := fun k => funext fun a => Fin.ext (by
    match a with | ⟨0, _⟩ => rfl | ⟨1, _⟩ => rfl | ⟨2, _⟩ => rfl)
  have r0 : ∀ k, ridx_main_v0 (ix3 b t f) k = ix2 k f := fun k => funext fun a => Fin.ext (by
    match a with | ⟨0, _⟩ => rfl | ⟨1, _⟩ => rfl)
  have l4 : ∀ k, lidx_main_v4 (ix3 b t f) k = ix3 b t k := fun k => funext fun a => Fin.ext (by
    match a with | ⟨0, _⟩ => rfl | ⟨1, _⟩ => rfl | ⟨2, _⟩ => rfl)
  have r4 : ∀ k, ridx_main_v4 (ix3 b t f) k = ix2 k f := fun k => funext fun a => Fin.ext (by
    match a with | ⟨0, _⟩ => rfl | ⟨1, _⟩ => rfl)
  have i1 : idx_main_v1 (idx_main_v2 (ix3 b t f)) = ix1 f := funext fun a => Fin.ext (by match a with | ⟨0, _⟩ => rfl)
  have i6 : idx_main_v6 (idx_main_v7 (ix3 b t f)) = ix1 f := funext fun a => Fin.ext (by match a with | ⟨0, _⟩ => rfl)
  rw [val_main_v8_apply, val_main_v5_apply, val_main_v3_apply, val_main_v0_apply, val_main_v4_apply, val_main_v2_apply,
    val_main_v1_apply, val_main_v7_apply, val_main_v6_apply]
  simp only [Ideal.addf_def, l0, r0, l4, r4, i1, i6]

/-- The reference's decoder projection at (b, u, f). -/
theorem projRow (x1 : (⟨S8x50x512, .f32⟩ : BufTy).Contents (Elt Ideal)) (x7 : (⟨S512x640, .f32⟩ : BufTy).Contents (Elt Ideal)) (x8 : (⟨S640, .f32⟩ : BufTy).Contents (Elt Ideal))
    (b : Fin 8) (u : Fin 50) (f : Fin 640) :
    val_main_v12 (F := Ideal) x1 x7 x8 (ix3 b u f) = (∑ d : Fin 512, x1 (ix3 b u d) * x7 (ix2 d f)) + x8 (ix1 f) := by
  have l9 : ∀ k, lidx_main_v9 (ix3 b u f) k = ix3 b u k := fun k => funext fun a => Fin.ext (by
    match a with | ⟨0, _⟩ => rfl | ⟨1, _⟩ => rfl | ⟨2, _⟩ => rfl)
  have r9 : ∀ k, ridx_main_v9 (ix3 b u f) k = ix2 k f := fun k => funext fun a => Fin.ext (by
    match a with | ⟨0, _⟩ => rfl | ⟨1, _⟩ => rfl)
  have i10 : idx_main_v10 (idx_main_v11 (ix3 b u f)) = ix1 f := funext fun a => Fin.ext (by match a with | ⟨0, _⟩ => rfl)
  rw [val_main_v12_apply, val_main_v9_apply, val_main_v11_apply, val_main_v10_apply]
  simp only [Ideal.addf_def, l9, r9, i10]

/-- The reference's joint activation at (b, t, u, f): tanh of the broadcast sum of the two projections. -/
theorem jointRow (x0 : (⟨S8x200x512, .f32⟩ : BufTy).Contents (Elt Ideal)) (x1 : (⟨S8x50x512, .f32⟩ : BufTy).Contents (Elt Ideal)) (x2 : (⟨S8x200x512, .f32⟩ : BufTy).Contents (Elt Ideal)) (x3 : (⟨S512x640, .f32⟩ : BufTy).Contents (Elt Ideal)) (x4 : (⟨S640, .f32⟩ : BufTy).Contents (Elt Ideal))
    (x5 : (⟨S512x640, .f32⟩ : BufTy).Contents (Elt Ideal)) (x6 : (⟨S640, .f32⟩ : BufTy).Contents (Elt Ideal)) (x7 : (⟨S512x640, .f32⟩ : BufTy).Contents (Elt Ideal)) (x8 : (⟨S640, .f32⟩ : BufTy).Contents (Elt Ideal))
    (b : Fin 8) (t : Fin 200) (u : Fin 50) (f : Fin 640) :
    val_main_v18 (F := Ideal) x0 x1 x2 x3 x4 x5 x6 x7 x8 (ix4 b t u f)
      = Ideal.tanh (val_main_v8 (F := Ideal) x0 x2 x3 x4 x5 x6 (ix3 b t f) + val_main_v12 (F := Ideal) x1 x7 x8 (ix3 b u f)) := by
  have i13 : idx_main_v13 (idx_main_v15 (ix4 b t u f)) = ix3 b t f := funext fun a => Fin.ext (by
    match a with | ⟨0, _⟩ => rfl | ⟨1, _⟩ => rfl | ⟨2, _⟩ => rfl)
  have i14 : idx_main_v14 (idx_main_v16 (ix4 b t u f)) = ix3 b u f := funext fun a => Fin.ext (by
    match a with | ⟨0, _⟩ => rfl | ⟨1, _⟩ => rfl | ⟨2, _⟩ => rfl)
  rw [val_main_v18_apply, val_main_v17_apply, val_main_v15_apply, val_main_v13_apply, val_main_v16_apply, val_main_v14_apply,
    i13, i14]
  simp only [Ideal.hostUnary_tanh_def, Ideal.addf_def]

/-- The reference's result, entry by entry, is the joint network's entry of the rows it reads. -/
theorem result_apply (x0 : (⟨S8x200x512, .f32⟩ : BufTy).Contents (Elt Ideal)) (x1 : (⟨S8x50x512, .f32⟩ : BufTy).Contents (Elt Ideal)) (x2 : (⟨S8x200x512, .f32⟩ : BufTy).Contents (Elt Ideal)) (x3 : (⟨S512x640, .f32⟩ : BufTy).Contents (Elt Ideal)) (x4 : (⟨S640, .f32⟩ : BufTy).Contents (Elt Ideal))
    (x5 : (⟨S512x640, .f32⟩ : BufTy).Contents (Elt Ideal)) (x6 : (⟨S640, .f32⟩ : BufTy).Contents (Elt Ideal)) (x7 : (⟨S512x640, .f32⟩ : BufTy).Contents (Elt Ideal)) (x8 : (⟨S640, .f32⟩ : BufTy).Contents (Elt Ideal)) (x9 : (⟨S640x1024, .f32⟩ : BufTy).Contents (Elt Ideal)) (x10 : (⟨S1024, .f32⟩ : BufTy).Contents (Elt Ideal))
    (b : Fin 8) (t : Fin 200) (u : Fin 50) (v : Fin 1024) :
    val_main_v22 (F := Ideal) x0 x1 x2 x3 x4 x5 x6 x7 x8 x9 x10 (ix4 b t u v)
      = Joint.entry (fun e => x0 (ix3 b t e)) (fun d => x2 (ix3 b t d)) (fun d => x1 (ix3 b u d))
          (fun e f => x3 (ix2 e f)) (fun e f => x5 (ix2 e f)) (fun e f => x7 (ix2 e f))
          (fun f => x4 (ix1 f)) (fun f => x6 (ix1 f)) (fun f => x8 (ix1 f)) (fun f w => x9 (ix2 f w)) (fun w => x10 (ix1 w)) v := by
  have l19 : ∀ k, lidx_main_v19 (ix4 b t u v) k = ix4 b t u k := fun k => funext fun a => Fin.ext (by
    match a with | ⟨0, _⟩ => rfl | ⟨1, _⟩ => rfl | ⟨2, _⟩ => rfl | ⟨3, _⟩ => rfl)
  have r19 : ∀ k, ridx_main_v19 (ix4 b t u v) k = ix2 k v := fun k => funext fun a => Fin.ext (by
    match a with | ⟨0, _⟩ => rfl | ⟨1, _⟩ => rfl)
  have i20 : idx_main_v20 (idx_main_v21 (ix4 b t u v)) = ix1 v := funext fun a => Fin.ext (by match a with | ⟨0, _⟩ => rfl)
  rw [val_main_v22_apply, val_main_v19_apply, val_main_v21_apply, val_main_v20_apply]
  simp only [Ideal.addf_def, l19, r19, i20, jointRow, fusedRow, projRow]
  rfl

end Cert.ReferenceIdeal.RefValue

end
-- ==== Proof.lean ====
/-
  The certificate of the joint-network kernel against its jnp reference.

  Both programs compute, for a batch row b, an encoder time step t, a decoder position u and a vocabulary entry v,
    logits(b, t, u, v) = Σ_f tanh(fused(b, t, f) + proj(b, u, f)) · W_out(f, v) + b_out(v)
  (Proof/Spec.lean). The kernel pads the time axis with zeros to 208, tiles it by 16, stages each tile's 16 × 50 joint
  rows in a scratch at a stride of 56 rows, multiplies the whole scratch by W_out in one matrix product and stores rows
  56·j … 56·j + 49 of the product as the block's rows (j, ·); the six rows of each group that no store writes hold
  whatever the scratch held, but a row of a matrix product reads only the same row of its left operand, so nothing
  stored depends on them. Over the extended reals the conversions to the narrower float format are the identity and each
  matrix product is the plain sum over the contracted index, so each stored entry is the reference's entry; the padded time
  steps are cut away by the final slice. No finiteness of the inputs is used.

  The word-level kernel's frame names nothing of the result (Proof/KernelFrame.lean); the idealized kernel's run names the
  result array (Proof/KernelIdealFrame.lean … KernelIdealResult.lean); the reference's run is the generated one, read index
  by index (Proof/RefValue.lean).
-/
import proofs.«164674_j32908039422062_2_alg».proof.Defs
import proofs.«164674_j32908039422062_2_alg».proof.Proof.Gen.Kernel
import proofs.«164674_j32908039422062_2_alg».proof.Proof.Gen.KernelIdeal
import proofs.«164674_j32908039422062_2_alg».proof.Proof.Gen.ReferenceIdeal
import proofs.«164674_j32908039422062_2_alg».proof.Proof.Gen.Pre_finite_inputs
import proofs.«164674_j32908039422062_2_alg».proof.Proof.Gen.ReferenceIdeal.Run
import proofs.«164674_j32908039422062_2_alg».proof.Proof.Gen.ReferenceIdeal.Read
import proofs.«164674_j32908039422062_2_alg».proof.Proof.KernelFrame
import proofs.«164674_j32908039422062_2_alg».proof.Proof.KernelIdealResult
import proofs.«164674_j32908039422062_2_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Body.frame (F := Bits) m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories agreeing on the arguments both programs end with the same result array: entry by entry the joint
    network's entry of the arguments' rows. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v22_eq, a0, a1, a2, a3, a4, a5, a6, a7, a8, a9, a10]
  funext i
  obtain ⟨b, t, u, v, rfl⟩ : ∃ (b : Fin 8) (t : Fin 200) (u : Fin 50) (v : Fin 1024), i = ix4 b t u v := ⟨i 0, i 1, i 2, i 3, eq_ix4 i⟩
  rw [Cert.ReferenceIdeal.RefValue.result_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
